-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v36_0)) (v1 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36_0) = v0 c
          ∧ r.2.mem ((c.tc : Thread Cert.KernelIdeal.nD Cert.KernelIdeal.τ).loc Cert.KernelIdeal.main_v37) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_v59) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x128 : Shape := ⟨2, ![40000, 128]⟩
abbrev S2x640000 : Shape := ⟨2, ![2, 640000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x40 : Shape := ⟨2, ![64, 40]⟩
abbrev S40 : Shape := ⟨1, ![40]⟩
abbrev S_ : Shape := ⟨0, ![]⟩

class Facts : Prop where
  bcast_S_S40000x128 : S_.BroadcastsInDim S40000x128 (![] : Fin 0 → Fin S40000x128.rank)
  reducesTo_S40000x128_S_d0_1 : S40000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn_part2 {F : FTy → Type} [FloatOps F] (main_arg8 : FVec F S64x40 .f32) (main_arg9 : FVec F S40 .f32) (main_v33 : IVec S_ 1) : IVec S_ 1 :=
  let main_v34 : FVec F S64x40 .f32 := Host.absf main_arg8
  let main_cst_12 : FVec F S_ .f32 := constant S_ .f32 0x7F800000#32
  let main_v35 : FVec F S64x40 .f32 := broadcastInDim S64x40 ![] bcast_S_S64x40 main_cst_12
  let main_v36 : IVec S64x40 1 := cmpf .olt main_v34 main_v35
  let main_c_13 : IVec S_ 1 := constantI S_ 1 1#1
  let main_v37 : IVec S_ 1 := (fun x v => Host.reduce IntOp.andi x v reducesTo_S64x40_S_d0_1 h_S_) main_v36 main_c_13
  let main_v38 : IVec S_ 1 := andi main_v33 main_v37
  let main_v39 : FVec F S40 .f32 := Host.absf main_arg9
  let main_cst_14 : FVec F S_ .f32 := constant S_ .f32 0x7F800000#32
  let main_v40 : FVec F S40 .f32 := broadcastInDim S40 ![] bcast_S_S40 main_cst_14
  let main_v41 : IVec S40 1 := cmpf .olt main_v39 main_v40
  let main_c_15 : IVec S_ 1 := constantI S_ 1 1#1
  let main_v42 : IVec S_ 1 := (fun x v => Host.reduce IntOp.andi x v reducesTo_S40_S_d0 h_S_) main_v41 main_c_15
  let main_v43 : IVec S_ 1 := andi main_v38 main_v42
  main_v43

def fn_part1 {F : FTy → Type} [FloatOps F] (main_arg5 : FVec F S128x64 .f32) (main_arg6 : FVec F S64 .f32) (main_arg7 : FVec F S128x64 .f32) (main_arg8 : FVec F S64x40 .f32) (main_arg9 : FVec F S40 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S128x64 .f32 := Host.absf main_arg7
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg8 main_arg9 main_v33

def fn {F : FTy → Type} [FloatOps F] (main_arg0 : FVec F S40000x128 .f32) (main_arg1 : IVec S2x640000 32) (main_arg2 : FVec F S128x128 .f32) (main_arg3 : FVec F S128 .f32) (main_arg4 : FVec F S128x128 .f32) (main_arg5 : FVec F S128x64 .f32) (main_arg6 : FVec F S64 .f32) (main_arg7 : FVec F S128x64 .f32) (main_arg8 : FVec F S64x40 .f32) (main_arg9 : FVec F S40 .f32) : IVec S_ 1 :=
  let main_v0 : FVec F S40000x128 .f32 := Host.absf main_arg0
  let main_cst : FVec F S_ .f32 := constant S_ .f32 0x7F800000#32
  let main_v1 : FVec F S40000x128 .f32 := broadcastInDim S40000x128 ![] bcast_S_S40000x128 main_cst
  let main_v2 : IVec S40000x128 1 := cmpf .olt main_v0 main_v1
  let main_c : IVec S_ 1 := constantI S_ 1 1#1
  let main_v3 : IVec S_ 1 := (fun x v => Host.reduce IntOp.andi x v reducesTo_S40000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S40000x128 : Shape := ⟨2, ![40000, 128]⟩
abbrev S2x640000 : Shape := ⟨2, ![2, 640000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x40 : Shape := ⟨2, ![64, 40]⟩
abbrev S40 : Shape := ⟨1, ![40]⟩
abbrev S1x640000 : Shape := ⟨2, ![1, 640000]⟩
abbrev S640000 : Shape := ⟨1, ![640000]⟩
abbrev S_ : Shape := ⟨0, ![]⟩
abbrev S40000 : Shape := ⟨1, ![40000]⟩
abbrev S640000x1 : Shape := ⟨2, ![640000, 1]⟩
abbrev S40000x1 : Shape := ⟨2, ![40000, 1]⟩
abbrev S640000x128 : Shape := ⟨2, ![640000, 128]⟩
abbrev S40000x64 : Shape := ⟨2, ![40000, 64]⟩
abbrev S4000x128 : Shape := ⟨2, ![4000, 128]⟩
abbrev S4000x1 : Shape := ⟨2, ![4000, 1]⟩
abbrev S4000x64 : Shape := ⟨2, ![4000, 64]⟩
abbrev S1x128 : Shape := ⟨2, ![1, 128]⟩
abbrev S640000x64 : Shape := ⟨2, ![640000, 64]⟩
abbrev S64x128 : Shape := ⟨2, ![64, 128]⟩
abbrev S1x64 : Shape := ⟨2, ![1, 64]⟩
abbrev S40000x40 : Shape := ⟨2, ![40000, 40]⟩

abbrev nBuf : Space → Nat
  | .hbm => 64
  | .vmem => 28
  | .smem => 0
  | _ => 0

abbrev bufTy : (tb : Table) → Fin (tcTables nBuf tb) → BufTy
  | .hbm, ⟨0, _⟩ => ⟨S40000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x64, .f32⟩
  | .hbm, ⟨6, _⟩ => ⟨S64, .f32⟩
  | .hbm, ⟨7, _⟩ => ⟨S128x64, .f32⟩
  | .hbm, ⟨8, _⟩ => ⟨S64x40, .f32⟩
  | .hbm, ⟨9, _⟩ => ⟨S40, .f32⟩
  | .hbm, ⟨10, _⟩ => ⟨S1x640000, .i32⟩
  | .hbm, ⟨11, _⟩ => ⟨S640000, .i32⟩
  | .hbm, ⟨12, _⟩ => ⟨S1x640000, .i32⟩
  | .hbm, ⟨13, _⟩ => ⟨S640000, .i32⟩
  | .hbm, ⟨14, _⟩ => ⟨S_, .f32⟩
  | .hbm, ⟨15, _⟩ => ⟨S640000, .f32⟩
  | .hbm, ⟨16, _⟩ => ⟨S_, .f32⟩
  | .hbm, ⟨17, _⟩ => ⟨S40000, .f32⟩
  | .hbm, ⟨18, _⟩ => ⟨S640000x1, .i32⟩
  | .hbm, ⟨19, _⟩ => ⟨S40000, .f32⟩
  | .hbm, ⟨20, _⟩ => ⟨S_, .f32⟩
  | .hbm, ⟨21, _⟩ => ⟨S40000, .f32⟩
  | .hbm, ⟨22, _⟩ => ⟨S40000, .f32⟩
  | .hbm, ⟨23, _⟩ => ⟨S_, .f32⟩
  | .hbm, ⟨24, _⟩ => ⟨S40000, .f32⟩
  | .hbm, ⟨25, _⟩ => ⟨S40000, .f32⟩
  | .hbm, ⟨26, _⟩ => ⟨S40000x1, .f32⟩
  | .hbm, ⟨27, _⟩ => ⟨S_, .i32⟩
  | .hbm, ⟨28, _⟩ => ⟨S640000, .i32⟩
  | .hbm, ⟨29, _⟩ => ⟨S640000, .i1⟩
  | .hbm, ⟨30, _⟩ => ⟨S_, .i32⟩
  | .hbm, ⟨31, _⟩ => ⟨S640000, .i32⟩
  | .hbm, ⟨32, _⟩ => ⟨S640000, .i32⟩
  | .hbm, ⟨33, _⟩ => ⟨S640000, .i32⟩
  | .hbm, ⟨34, _⟩ => ⟨S640000x1, .i32⟩
  | .hbm, ⟨35, _⟩ => ⟨S640000x128, .f32⟩
  | .hbm, ⟨36, _⟩ => ⟨S_, .f32⟩
  | .hbm, ⟨37, _⟩ => ⟨S40000x128, .f32⟩
  | .hbm, ⟨38, _⟩ => ⟨S640000x1, .i32⟩
  | .hbm, ⟨39, _⟩ => ⟨S40000x128, .f32⟩
  | .hbm, ⟨40, _⟩ => ⟨S40000x128, .f32⟩
  | .hbm, ⟨41, _⟩ => ⟨S40000x64, .f32⟩
  | .hbm, ⟨42, _⟩ => ⟨S_, .i32⟩
  | .hbm, ⟨43, _⟩ => ⟨S640000, .i32⟩
  | .hbm, ⟨44, _⟩ => ⟨S640000, .i1⟩
  | .hbm, ⟨45, _⟩ => ⟨S_, .i32⟩
  | .hbm, ⟨46, _⟩ => ⟨S640000, .i32⟩
  | .hbm, ⟨47, _⟩ => ⟨S640000, .i32⟩
  | .hbm, ⟨48, _⟩ => ⟨S640000, .i32⟩
  | .hbm, ⟨49, _⟩ => ⟨S640000x1, .i32⟩
  | .hbm, ⟨50, _⟩ => ⟨S640000x64, .f32⟩
  | .hbm, ⟨51, _⟩ => ⟨S_, .f32⟩
  | .hbm, ⟨52, _⟩ => ⟨S40000x64, .f32⟩
  | .hbm, ⟨53, _⟩ => ⟨S640000x1, .i32⟩
  | .hbm, ⟨54, _⟩ => ⟨S40000x64, .f32⟩
  | .hbm, ⟨55, _⟩ => ⟨S_, .i32⟩
  | .hbm, ⟨56, _⟩ => ⟨S_, .f32⟩
  | .hbm, ⟨57, _⟩ => ⟨S64x128, .f32⟩
  | .hbm, ⟨58, _⟩ => ⟨S_, .i32⟩
  | .hbm, ⟨59, _⟩ => ⟨S_, .f32⟩
  | .hbm, ⟨60, _⟩ => ⟨S128, .f32⟩
  | .hbm, ⟨61, _⟩ => ⟨S40000x64, .f32⟩
  | .hbm, ⟨62, _⟩ => ⟨S40000x128, .f32⟩
  | .hbm, ⟨63, _⟩ => ⟨S40000x40, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S4000x1, .f32⟩
  | .local _ .vmem, ⟨5, _⟩ => ⟨S4000x1, .f32⟩
  | .local _ .vmem, ⟨6, _⟩ => ⟨S128x128, .f32⟩
  | .local _ .vmem, ⟨7, _⟩ => ⟨S128, .f32⟩
  | .local _ .vmem, ⟨8, _⟩ => ⟨S128x128, .f32⟩
  | .local _ .vmem, ⟨9, _⟩ => ⟨S128x64, .f32⟩
  | .local _ .vmem, ⟨10, _⟩ => ⟨S4000x128, .f32⟩
  | .local _ .vmem, ⟨11, _⟩ => ⟨S4000x128, .f32⟩
  | .local _ .vmem, ⟨12, _⟩ => ⟨S4000x64, .f32⟩
  | .local _ .vmem, ⟨13, _⟩ => ⟨S4000x64, .f32⟩
  | .local _ .vmem, ⟨14, _⟩ => ⟨S4000x64, .f32⟩
  | .local _ .vmem, ⟨15, _⟩ => ⟨S4000x64, .f32⟩
  | .local _ .vmem, ⟨16, _⟩ => ⟨S4000x1, .f32⟩
  | .local _ .vmem, ⟨17, _⟩ => ⟨S4000x1, .f32⟩
  | .local _ .vmem, ⟨18, _⟩ => ⟨S4000x128, .f32⟩
  | .local _ .vmem, ⟨19, _⟩ => ⟨S4000x128, .f32⟩
  | .local _ .vmem, ⟨20, _⟩ => ⟨S64, .f32⟩
  | .local _ .vmem, ⟨21, _⟩ => ⟨S128x64, .f32⟩
  | .local _ .vmem, ⟨22, _⟩ => ⟨S64x128, .f32⟩
  | .local _ .vmem, ⟨23, _⟩ => ⟨S128, .f32⟩
  | .local _ .vmem, ⟨24, _⟩ => ⟨S4000x64, .f32⟩
  | .local _ .vmem, ⟨25, _⟩ => ⟨S4000x64, .f32⟩
  | .local _ .vmem, ⟨26, _⟩ => ⟨S4000x128, .f32⟩
  | .local _ .vmem, ⟨27, _⟩ => ⟨S4000x128, .f32⟩
  | _, _ => ⟨S40000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_c : Ref sig .tc := ⟨.hbm, 27, rfl⟩
abbrev main_v13 : Ref sig .tc := ⟨.hbm, 28, rfl⟩
abbrev main_v14 : Ref sig .tc := ⟨.hbm, 29, rfl⟩
abbrev main_c_3 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23_0 : Ref sig .tc := ⟨.hbm, 40, rfl⟩
abbrev main_v23_1 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_c_6 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_7 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_c_8 : Ref sig .tc := ⟨.hbm, 55, rfl⟩
abbrev main_call0_v0 : Ref sig .tc := ⟨.hbm, 56, rfl⟩
abbrev main_v34 : Ref sig .tc := ⟨.hbm, 57, rfl⟩
abbrev main_c_9 : Ref sig .tc := ⟨.hbm, 58, rfl⟩
abbrev main_call1_v0 : Ref sig .tc := ⟨.hbm, 59, rfl⟩
abbrev main_v35 : Ref sig .tc := ⟨.hbm, 60, rfl⟩
abbrev main_v36_0 : Ref sig .tc := ⟨.hbm, 61, rfl⟩
abbrev main_v36_1 : Ref sig .tc := ⟨.hbm, 62, rfl⟩
abbrev main_v37 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg6_0 : Ref sig .tc := ⟨.vmem, 23, rfl⟩
abbrev cc1_stg7_0 : Ref sig .tc := ⟨.vmem, 24, rfl⟩
abbrev cc1_stg7_1 : Ref sig .tc := ⟨.vmem, 25, rfl⟩
abbrev cc1_stg8_0 : Ref sig .tc := ⟨.vmem, 26, rfl⟩
abbrev cc1_stg8_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem4_0 : DmaSem sig := 21
abbrev cc1_sem5_0 : DmaSem sig := 22
abbrev cc1_sem6_0 : DmaSem sig := 23
abbrev cc1_sem7_0 : DmaSem sig := 24
abbrev cc1_sem7_1 : DmaSem sig := 25
abbrev cc1_sem8_0 : DmaSem sig := 26
abbrev cc1_sem8_1 : DmaSem sig := 27

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4000x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S4000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S4000x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S_S40000 : S_.BroadcastsInDim S40000 (![] : Fin 0 → Fin S40000.rank)
  bcast_S640000_S640000x1_0 : S640000.BroadcastsInDim S640000x1 (![0] : Fin 1 → Fin S640000x1.rank)
  bcast_S40000_S40000x1_0 : S40000.BroadcastsInDim S40000x1 (![0] : Fin 1 → Fin S40000x1.rank)
  bcast_S_S40000x128 : S_.BroadcastsInDim S40000x128 (![] : Fin 0 → Fin S40000x128.rank)
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  broadcasts_S4000x1_S4000x128 : S4000x1.Broadcasts S4000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S4000x128 : S1x128.Broadcasts S4000x128
  inb_S128x64_S128x64_0_0 : ∀ a, (![0, 0] : Fin 2 → Nat) a + S128x64.size a ≤ S128x64.size a
  h_S128x64 : 0 < S128x64.numel
  inb_S4000x64_S4000x64_0_0 : ∀ a, (![0, 0] : Fin 2 → Nat) a + S4000x64.size a ≤ S4000x64.size a
  h_S4000x64 : 0 < S4000x64.numel
  bcast_S_S40000x64 : S_.BroadcastsInDim S40000x64 (![] : Fin 0 → Fin S40000x64.rank)
  pads_S64x40_S64x128_000_0880 : S64x40.Pads (![0, 0] : Fin 2 → Nat) ![0, 88] ![0, 0] S64x128
  h_S_ : 0 < S_.numel
  pads_S40_S128_0880 : S40.Pads (![0] : Fin 1 → Nat) ![88] ![0] S128
  shapeCasts_S4000x64_S4000x64 : S4000x64.ShapeCasts S4000x64
  broadcasts_S4000x1_S4000x64 : S4000x1.Broadcasts S4000x64
  inb_S64_S64_0 : ∀ a, (![0] : Fin 1 → Nat) a + S64.size a ≤ S64.size a
  h_S64 : 0 < S64.numel
  shapeCasts_S64_S1x64 : S64.ShapeCasts S1x64
  broadcasts_S1x64_S4000x64 : S1x64.Broadcasts S4000x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  shapeCasts_S128_S128 : S128.ShapeCasts S128
  slices_S40000x128_S40000x40_0_0 : S40000x128.Slices ![0, 0] S40000x40
  scatter_S40000_S640000x1_S640000_n_0_0_1_wf : ScatterDims.WF S40000 S640000x1 S640000 [] [0] [0] 1
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  dot_S4000x128_S128x128_S4000x128_1_0_0_1_n_n_wf : DotDims.WF S4000x128 S128x128 S4000x128 [1] [0] [0] [1] [] []
  dot_S4000x128_S128x64_S4000x64_1_0_0_1_n_n_wf : DotDims.WF S4000x128 S128x64 S4000x64 [1] [0] [0] [1] [] []
  gather_S40000x64_S640000x1_S640000x64_1_0_n_n_0_1_164_wf : GatherDims.WF S40000x64 S640000x1 S640000x64 [1] [0] [] [0] [] 1 ![1, 64]
  scatter_S40000x64_S640000x1_S640000x64_1_0_0_1_wf : ScatterDims.WF S40000x64 S640000x1 S640000x64 [1] [0] [0] 1
  dot_S4000x64_S64x128_S4000x128_1_0_0_1_n_n_wf : DotDims.WF S4000x64 S64x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S40000x128.size a
  hwx0_0 : ∀ i : grid0.Coords, EltTy.bits .f32 = 32 ∨ (Rect.block (s := S40000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S40000x128.size a
  hwx0_1 : ∀ i : grid0.Coords, EltTy.bits .f32 = 32 ∨ (Rect.block (s := S40000x128) S4000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S40000x1.size a
  hwx0_2 : ∀ i : grid0.Coords, EltTy.bits .f32 = 32 ∨ (Rect.block (s := S40000x1) S4000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x64.size a ≤ S128x64.size a
  hwx0_6 : ∀ i : grid0.Coords, EltTy.bits .f32 = 32 ∨ (Rect.block (s := S128x64) S128x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4000x128.size a ≤ S40000x128.size a
  hwx0_7 : ∀ i : grid0.Coords, EltTy.bits .f32 = 32 ∨ (Rect.block (s := S40000x128) S4000x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S4000x64.size a ≤ S40000x64.size a
  hwx0_8 : ∀ i : grid0.Coords, EltTy.bits .f32 = 32 ∨ (Rect.block (s := S40000x64) S4000x64.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S40000x64.size a
  hwx1_0 : ∀ i : grid1.Coords, EltTy.bits .f32 = 32 ∨ (Rect.block (s := S40000x64) S4000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x1.size a ≤ S40000x1.size a
  hwx1_1 : ∀ i : grid1.Coords, EltTy.bits .f32 = 32 ∨ (Rect.block (s := S40000x1) S4000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x128.size a ≤ S40000x128.size a
  hwx1_2 : ∀ i : grid1.Coords, EltTy.bits .f32 = 32 ∨ (Rect.block (s := S40000x128) S4000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64.size a ≤ S64.size a
  hwx1_3 : ∀ i : grid1.Coords, EltTy.bits .f32 = 32 ∨ (Rect.block (s := S64) S64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x64.size a ≤ S128x64.size a
  hwx1_4 : ∀ i : grid1.Coords, EltTy.bits .f32 = 32 ∨ (Rect.block (s := S128x64) S128x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x128.size a ≤ S64x128.size a
  hwx1_5 : ∀ i : grid1.Coords, EltTy.bits .f32 = 32 ∨ (Rect.block (s := S64x128) S64x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128.size a ≤ S128.size a
  hwx1_6 : ∀ i : grid1.Coords, EltTy.bits .f32 = 32 ∨ (Rect.block (s := S128) S128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S4000x64.size a ≤ S40000x64.size a
  hwx1_7 : ∀ i : grid1.Coords, EltTy.bits .f32 = 32 ∨ (Rect.block (s := S40000x64) S4000x64.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S4000x128.size a ≤ S40000x128.size a
  hwx1_8 : ∀ i : grid1.Coords, EltTy.bits .f32 = 32 ∨ (Rect.block (s := S40000x128) S4000x128.size (cc1_transform_8 i) (hinb1_8 i)).WholeWords (EltTy.packing .f32)

variable [Facts₀]

def scatter_S40000_S640000x1_S640000_n_0_0_1 : ScatterDims S40000 S640000x1 S640000 where
  updateWindowDims := []
  insertedWindowDims := [0]
  scatterDimsToOperandDims := [0]
  indexVectorDim := 1
  wf := scatter_S40000_S640000x1_S640000_n_0_0_1_wf
def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf
def gather_S40000x64_S640000x1_S640000x64_1_0_n_n_0_1_164 : GatherDims S40000x64 S640000x1 S640000x64 where
  offsetDims := [1]
  collapsedSliceDims := [0]
  operandBatchingDims := []
  startIndicesBatchingDims := []
  startIndexMap := [0]
  indexVectorDim := 1
  sliceSizes := ![1, 64]
  wf := gather_S40000x64_S640000x1_S640000x64_1_0_n_n_0_1_164_wf
def scatter_S40000x64_S640000x1_S640000x64_1_0_0_1 : ScatterDims S40000x64 S640000x1 S640000x64 where
  updateWindowDims := [1]
  insertedWindowDims := [0]
  scatterDimsToOperandDims := [0]
  indexVectorDim := 1
  wf := scatter_S40000x64_S640000x1_S640000x64_1_0_0_1_wf
def dot_S4000x64_S64x128_S4000x128_1_0_0_1_n_n : DotDims S4000x64 S64x128 S4000x128 where
  lhsContracting := [1]
  rhsContracting := [0]
  lhsNonContracting := [0]
  rhsNonContracting := [1]
  lhsBatch := []
  rhsBatch := []
  wf := dot_S4000x64_S64x128_S4000x128_1_0_0_1_n_n_wf

abbrev win0_0 : Pipeline.Window sig grid0 :=
  Pipeline.Window.ofSpec (Memref.whole main_v22) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S128x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v23_0) S4000x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v23_1) S4000x64.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v33) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S4000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v23_0) S4000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v34) S64x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v35) S128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v36_0) S4000x64.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v36_1) S4000x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S40000x128 : Shape := ⟨2, ![40000, 128]⟩
abbrev S2x640000 : Shape := ⟨2, ![2, 640000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x40 : Shape := ⟨2, ![64, 40]⟩
abbrev S40 : Shape := ⟨1, ![40]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S40000 : Shape := ⟨1, ![40000]⟩
abbrev S40000x1 : Shape := ⟨2, ![40000, 1]⟩
abbrev S1x128 : Shape := ⟨2, ![1, 128]⟩
abbrev S40000x64 : Shape := ⟨2, ![40000, 64]⟩
abbrev S1x64 : Shape := ⟨2, ![1, 64]⟩
abbrev S40000x40 : Shape := ⟨2, ![40000, 40]⟩
abbrev S1x40 : Shape := ⟨2, ![1, 40]⟩

abbrev nBuf : Space → Nat
  | .hbm => 86
  | .vmem => 0
  | .smem => 0
  | _ => 0

abbrev bufTy : (tb : Table) → Fin (tcTables nBuf tb) → BufTy
  | .hbm, ⟨0, _⟩ => ⟨S40000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x64, .f32⟩
  | .hbm, ⟨6, _⟩ => ⟨S64, .f32⟩
  | .hbm, ⟨7, _⟩ => ⟨S128x64, .f32⟩
  | .hbm, ⟨8, _⟩ => ⟨S64x40, .f32⟩
  | .hbm, ⟨9, _⟩ => ⟨S40, .f32⟩
  | .hbm, ⟨10, _⟩ => ⟨S1x640000, .i32⟩
  | .hbm, ⟨11, _⟩ => ⟨S640000, .i32⟩
  | .hbm, ⟨12, _⟩ => ⟨S1x640000, .i32⟩
  | .hbm, ⟨13, _⟩ => ⟨S640000, .i32⟩
  | .hbm, ⟨14, _⟩ => ⟨S_, .i32⟩
  | .hbm, ⟨15, _⟩ => ⟨S640000, .i32⟩
  | .hbm, ⟨16, _⟩ => ⟨S640000, .i1⟩
  | .hbm, ⟨17, _⟩ => ⟨S_, .i32⟩
  | .hbm, ⟨18, _⟩ => ⟨S640000, .i32⟩
  | .hbm, ⟨19, _⟩ => ⟨S640000, .i32⟩
  | .hbm, ⟨20, _⟩ => ⟨S640000, .i32⟩
  | .hbm, ⟨21, _⟩ => ⟨S640000x1, .i32⟩
  | .hbm, ⟨22, _⟩ => ⟨S640000x128, .f32⟩
  | .hbm, ⟨23, _⟩ => ⟨S_, .f32⟩
  | .hbm, ⟨24, _⟩ => ⟨S40000x128, .f32⟩
  | .hbm, ⟨25, _⟩ => ⟨S640000x1, .i32⟩
  | .hbm, ⟨26, _⟩ => ⟨S40000x128, .f32⟩
  | .hbm, ⟨27, _⟩ => ⟨S_, .f32⟩
  | .hbm, ⟨28, _⟩ => ⟨S640000, .f32⟩
  | .hbm, ⟨29, _⟩ => ⟨S_, .f32⟩
  | .hbm, ⟨30, _⟩ => ⟨S40000, .f32⟩
  | .hbm, ⟨31, _⟩ => ⟨S640000x1, .i32⟩
  | .hbm, ⟨32, _⟩ => ⟨S40000, .f32⟩
  | .hbm, ⟨33, _⟩ => ⟨S_, .f32⟩
  | .hbm, ⟨34, _⟩ => ⟨S40000, .f32⟩
  | .hbm, ⟨35, _⟩ => ⟨S40000, .f32⟩
  | .hbm, ⟨36, _⟩ => ⟨S40000x1, .f32⟩
  | .hbm, ⟨37, _⟩ => ⟨S40000x128, .f32⟩
  | .hbm, ⟨38, _⟩ => ⟨S40000x128, .f32⟩
  | .hbm, ⟨39, _⟩ => ⟨S40000x128, .f32⟩
  | .hbm, ⟨40, _⟩ => ⟨S1x128, .f32⟩
  | .hbm, ⟨41, _⟩ => ⟨S40000x128, .f32⟩
  | .hbm, ⟨42, _⟩ => ⟨S40000x128, .f32⟩
  | .hbm, ⟨43, _⟩ => ⟨S40000x128, .f32⟩
  | .hbm, ⟨44, _⟩ => ⟨S40000x128, .f32⟩
  | .hbm, ⟨45, _⟩ => ⟨S_, .f32⟩
  | .hbm, ⟨46, _⟩ => ⟨S40000x128, .f32⟩
  | .hbm, ⟨47, _⟩ => ⟨S40000x128, .f32⟩
  | .hbm, ⟨48, _⟩ => ⟨S_, .i32⟩
  | .hbm, ⟨49, _⟩ => ⟨S640000, .i32⟩
  | .hbm, ⟨50, _⟩ => ⟨S640000, .i1⟩
  | .hbm, ⟨51, _⟩ => ⟨S_, .i32⟩
  | .hbm, ⟨52, _⟩ => ⟨S640000, .i32⟩
  | .hbm, ⟨53, _⟩ => ⟨S640000, .i32⟩
  | .hbm, ⟨54, _⟩ => ⟨S640000, .i32⟩
  | .hbm, ⟨55, _⟩ => ⟨S640000x1, .i32⟩
  | .hbm, ⟨56, _⟩ => ⟨S640000x128, .f32⟩
  | .hbm, ⟨57, _⟩ => ⟨S_, .f32⟩
  | .hbm, ⟨58, _⟩ => ⟨S40000x128, .f32⟩
  | .hbm, ⟨59, _⟩ => ⟨S640000x1, .i32⟩
  | .hbm, ⟨60, _⟩ => ⟨S40000x128, .f32⟩
  | .hbm, ⟨61, _⟩ => ⟨S_, .f32⟩
  | .hbm, ⟨62, _⟩ => ⟨S640000, .f32⟩
  | .hbm, ⟨63, _⟩ => ⟨S_, .f32⟩
  | .hbm, ⟨64, _⟩ => ⟨S40000, .f32⟩
  | .hbm, ⟨65, _⟩ => ⟨S640000x1, .i32⟩
  | .hbm, ⟨66, _⟩ => ⟨S40000, .f32⟩
  | .hbm, ⟨67, _⟩ => ⟨S_, .f32⟩
  | .hbm, ⟨68, _⟩ => ⟨S40000, .f32⟩
  | .hbm, ⟨69, _⟩ => ⟨S40000, .f32⟩
  | .hbm, ⟨70, _⟩ => ⟨S40000x1, .f32⟩
  | .hbm, ⟨71, _⟩ => ⟨S40000x128, .f32⟩
  | .hbm, ⟨72, _⟩ => ⟨S40000x128, .f32⟩
  | .hbm, ⟨73, _⟩ => ⟨S40000x64, .f32⟩
  | .hbm, ⟨74, _⟩ => ⟨S1x64, .f32⟩
  | .hbm, ⟨75, _⟩ => ⟨S40000x64, .f32⟩
  | .hbm, ⟨76, _⟩ => ⟨S40000x64, .f32⟩
  | .hbm, ⟨77, _⟩ => ⟨S40000x64, .f32⟩
  | .hbm, ⟨78, _⟩ => ⟨S40000x64, .f32⟩
  | .hbm, ⟨79, _⟩ => ⟨S_, .f32⟩
  | .hbm, ⟨80, _⟩ => ⟨S40000x64, .f32⟩
  | .hbm, ⟨81, _⟩ => ⟨S40000x64, .f32⟩
  | .hbm, ⟨82, _⟩ => ⟨S40000x40, .f32⟩
  | .hbm, ⟨83, _⟩ => ⟨S1x40, .f32⟩
  | .hbm, ⟨84, _⟩ => ⟨S40000x40, .f32⟩
  | .hbm, ⟨85, _⟩ => ⟨S40000x40, .f32⟩
  | _, _ => ⟨S40000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_call0_cst : Ref sig .tc := ⟨.hbm, 45, rfl⟩
abbrev main_call0_v0 : Ref sig .tc := ⟨.hbm, 46, rfl⟩
abbrev main_v29 : Ref sig .tc := ⟨.hbm, 47, rfl⟩
abbrev main_c_4 : Ref sig .tc := ⟨.hbm, 48, rfl⟩
abbrev main_v30 : Ref sig .tc := ⟨.hbm, 49, rfl⟩
abbrev main_v31 : Ref sig .tc := ⟨.hbm, 50, rfl⟩
abbrev main_c_5 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_6 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_7 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_9 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_call1_cst : Ref sig .tc := ⟨.hbm, 79, rfl⟩
abbrev main_call1_v0 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S40000x128 : S_.BroadcastsInDim S40000x128 (![] : Fin 0 → Fin S40000x128.rank)
  bcast_S_S40000 : S_.BroadcastsInDim S40000 (![] : Fin 0 → Fin S40000.rank)
  bcast_S40000_S40000x1_0 : S40000.BroadcastsInDim S40000x1 (![0] : Fin 1 → Fin S40000x1.rank)
  bcast_S40000x1_S40000x128_0_1 : S40000x1.BroadcastsInDim S40000x128 (![0, 1] : Fin 2 → Fin S40000x128.rank)
  bcast_S128_S1x128_1 : S128.BroadcastsInDim S1x128 (![1] : Fin 1 → Fin S1x128.rank)
  bcast_S1x128_S40000x128_0_1 : S1x128.BroadcastsInDim S40000x128 (![0, 1] : Fin 2 → Fin S40000x128.rank)
  bcast_S64_S1x64_1 : S64.BroadcastsInDim S1x64 (![1] : Fin 1 → Fin S1x64.rank)
  bcast_S1x64_S40000x64_0_1 : S1x64.BroadcastsInDim S40000x64 (![0, 1] : Fin 2 → Fin S40000x64.rank)
  bcast_S_S40000x64 : S_.BroadcastsInDim S40000x64 (![] : Fin 0 → Fin S40000x64.rank)
  bcast_S40_S1x40_1 : S40.BroadcastsInDim S1x40 (![1] : Fin 1 → Fin S1x40.rank)
  bcast_S1x40_S40000x40_0_1 : S1x40.BroadcastsInDim S40000x40 (![0, 1] : Fin 2 → Fin S40000x40.rank)
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  scatter_S40000_S640000x1_S640000_n_0_0_1_wf : ScatterDims.WF S40000 S640000x1 S640000 [] [0] [0] 1
  dot_S40000x128_S128x128_S40000x128_1_0_0_1_n_n_wf : DotDims.WF S40000x128 S128x128 S40000x128 [1] [0] [0] [1] [] []
  dot_S40000x128_S128x64_S40000x64_1_0_0_1_n_n_wf : DotDims.WF S40000x128 S128x64 S40000x64 [1] [0] [0] [1] [] []
  dot_S40000x64_S64x40_S40000x40_1_0_0_1_n_n_wf : DotDims.WF S40000x64 S64x40 S40000x40 [1] [0] [0] [1] [] []

variable [Facts₀]

def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def scatter_S40000_S640000x1_S640000_n_0_0_1 : ScatterDims S40000 S640000x1 S640000 where
  updateWindowDims := []
  insertedWindowDims := [0]
  scatterDimsToOperandDims := [0]
  indexVectorDim := 1
  wf := scatter_S40000_S640000x1_S640000_n_0_0_1_wf
def dot_S40000x128_S128x128_S40000x128_1_0_0_1_n_n : DotDims S40000x128 S128x128 S40000x128 where
  lhsContracting := [1]
  rhsContracting := [0]
  lhsNonContracting := [0]
  rhsNonContracting := [1]
  lhsBatch := []
  rhsBatch := []
  wf := dot_S40000x128_S128x128_S40000x128_1_0_0_1_n_n_wf
def dot_S40000x128_S128x64_S40000x64_1_0_0_1_n_n : DotDims S40000x128 S128x64 S40000x64 where
  lhsContracting := [1]
  rhsContracting := [0]
  lhsNonContracting := [0]
  rhsNonContracting := [1]
  lhsBatch := []
  rhsBatch := []
  wf := dot_S40000x128_S128x64_S40000x64_1_0_0_1_n_n_wf
def dot_S40000x64_S64x40_S40000x40_1_0_0_1_n_n : DotDims S40000x64 S64x40 S40000x40 where
  lhsContracting := [1]
  rhsContracting := [0]
  lhsNonContracting := [0]
  rhsNonContracting := [1]
  lhsBatch := []
  rhsBatch := []
  wf := dot_S40000x64_S64x40_S40000x40_1_0_0_1_n_n_wf

class Facts : Prop extends Facts₀ where

variable [Facts]
-- ==== Proof.KernelRun.lean ====
/-
  The idealized kernel's run with its two results named.

  @main is eight segments: host operations, the layer-1 call, host operations (the second aggregation and the
  zero padding of the classifier's weights), the layer-2 call, and the final column slice. The generated frame follows
  the TensorCore's buffer contents through the segments — `Gen.W8` is what every unscoped buffer holds when @main
  returns — and reads off it only that the arguments are unchanged. Here the same run is read at the two result
  buffers as well: each ends at `Gen.W8`'s value for it.
-/
import proofs.«119127_j5686536700270_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the embedding and the logits end at the last
    boundary's contents of their buffers, and the arguments end as launched. -/
theorem run_results : θ_run defs (onTc (τ := τ) (main (F := F))) ⟨m, fun _ => 0, ρ⟩ (fun r => ∀ c : Dev nD,
      r.2.mem ((c.tc : Thread nD τ).loc main_v36_0) = W8 m ρ c (Proc.devRef .tc main_v36_0)
      ∧ r.2.mem ((c.tc : Thread nD τ).loc main_v37) = W8 m ρ c (Proc.devRef .tc main_v37)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v36_0 (by decide)),
       h c _ (mem_uc main_v37 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c)⟩)

end Cert.KernelIdeal.RunValue

end
-- ==== Proof.SageSpec.lean ====
/-
  The row-wise formulas of a two-layer mean-aggregating graph convolution with a linear head, at the exact values.

  Every formula computes row `n` of its result from row `n` of its matrix operands (and whole weight matrices), for
  any number of rows `N`: the same definition reads a 4000-row block inside a kernel body and the 40000-row array.
  `conv` is a layer from a matrix of neighbourhood means; `scaled` is a matrix whose row `n` is multiplied by entry
  `(n, 0)` of a column; `lin` is a matrix product; `convPre` is the layer whose neighbourhood term arrives already
  projected and is only scaled; `head` is the affine classifier.
-/
import Idealize.ShloMosaic.PureOps.Ideal
import Idealize.ShloMosaic.Lib.ValueIdx

noncomputable section

namespace Cert.Proof.Sage

open Idealize.ShloMosaic Idealize.ShloMosaic.ValueIdx

/-- The float zero the `relu`s compare with. -/
abbrev z32 : EReal := Ideal.ofBits .f32 0x00000000#32

/-- `M · Wn + b + Xs · Ws`, clipped below at zero: entry `(n, j)`. -/
def conv {N K J : Nat} (M : (⟨2, ![N, K]⟩ : Shape).Idx → EReal) (Wn : (⟨2, ![K, J]⟩ : Shape).Idx → EReal)
    (b : (⟨1, ![J]⟩ : Shape).Idx → EReal) (Xs : (⟨2, ![N, K]⟩ : Shape).Idx → EReal)
    (Ws : (⟨2, ![K, J]⟩ : Shape).Idx → EReal) : (⟨2, ![N, J]⟩ : Shape).Idx → EReal := fun i =>
  max (((∑ k : Fin K, M (ix2 (i 0) k) * Wn (ix2 k (i 1))) + b (ix1 (i 1)))
    + ∑ k : Fin K, Xs (ix2 (i 0) k) * Ws (ix2 k (i 1))) z32

/-- Row `n` of `A` multiplied by entry `(n, 0)` of the column `D`. -/
def scaled {N K : Nat} (A : (⟨2, ![N, K]⟩ : Shape).Idx → EReal) (D : (⟨2, ![N, 1]⟩ : Shape).Idx → EReal) :
    (⟨2, ![N, K]⟩ : Shape).Idx → EReal := fun i => A i * D (ix2 (i 0) ⟨0, Nat.one_pos⟩)

/-- The matrix product `H · W`: entry `(n, j)`. -/
def lin {N K J : Nat} (H : (⟨2, ![N, K]⟩ : Shape).Idx → EReal) (W : (⟨2, ![K, J]⟩ : Shape).Idx → EReal) :
    (⟨2, ![N, J]⟩ : Shape).Idx → EReal := fun i => ∑ k : Fin K, H (ix2 (i 0) k) * W (ix2 k (i 1))

/-- The layer whose neighbourhood term `P` is already projected: `P ⊙ D + b + Hs · Ws`, clipped below at zero. -/
def convPre {N K J : Nat} (P : (⟨2, ![N, J]⟩ : Shape).Idx → EReal) (D : (⟨2, ![N, 1]⟩ : Shape).Idx → EReal)
    (b : (⟨1, ![J]⟩ : Shape).Idx → EReal) (Hs : (⟨2, ![N, K]⟩ : Shape).Idx → EReal)
    (Ws : (⟨2, ![K, J]⟩ : Shape).Idx → EReal) : (⟨2, ![N, J]⟩ : Shape).Idx → EReal := fun i =>
  max ((P i * D (ix2 (i 0) ⟨0, Nat.one_pos⟩) + b (ix1 (i 1)))
    + ∑ k : Fin K, Hs (ix2 (i 0) k) * Ws (ix2 k (i 1))) z32

/-- The affine head `Em · W + b`: entry `(n, j)`. -/
def head {N K J : Nat} (Em : (⟨2, ![N, K]⟩ : Shape).Idx → EReal) (W : (⟨2, ![K, J]⟩ : Shape).Idx → EReal)
    (b : (⟨1, ![J]⟩ : Shape).Idx → EReal) : (⟨2, ![N, J]⟩ : Shape).Idx → EReal := fun i =>
  (∑ k : Fin K, Em (ix2 (i 0) k) * W (ix2 k (i 1))) + b (ix1 (i 1))

end Cert.Proof.Sage

end
-- ==== Proof.KBody.lean ====
/-
  The two kernel bodies as formulas of their loaded blocks, at the exact values.

  The layer-1 body stores `relu((agg ⊙ dinv) · W1_nb + b1 + x · W1_self)` and its projection by `W2_nb`; the layer-2 body
  stores `relu(aggp ⊙ dinv + b2 + h1 · W2_self)` and the padded head `emb · Wfc_p + bfc_p`. A change of float format is
  the identity here, a product into a zero accumulator is the plain sum over the contracted axis, a column broadcast
  reads the column's entry of the same row, a vector laid along the rows reads its entry of the same column. Each
  payload is therefore one of the row-wise formulas of the specification, applied to the body's loaded blocks.
-/
import proofs.«119127_j5686536700270_2_alg».proof.Proof.Gen.KernelIdeal.Skeleton
import proofs.«119127_j5686536700270_2_alg».proof.Proof.SageSpec
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen Cert.Proof.Sage
open Idealize.ShloMosaic Idealize.ShloMosaic.ValueIdx Idealize.SL.Sem

/-! ### The 4000×128 by 128×128 product -/

theorem lhs0_a (p : Fin 4000) (q : Fin 128) (c : dot_S4000x128_S128x128_S4000x128_1_0_0_1_n_n.contr.Idx) : (dot_S4000x128_S128x128_S4000x128_1_0_0_1_n_n.lhsIdx (ix2 p q) c 0).val = p.val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
theorem lhs1_a (p : Fin 4000) (q : Fin 128) (c : dot_S4000x128_S128x128_S4000x128_1_0_0_1_n_n.contr.Idx) : (dot_S4000x128_S128x128_S4000x128_1_0_0_1_n_n.lhsIdx (ix2 p q) c 1).val = (c ⟨0, by decide⟩).val :=
  dot_S4000x128_S128x128_S4000x128_1_0_0_1_n_n.lhsIdx_val_of_single rfl (ix2 p q) c
theorem rhs0_a (p : Fin 4000) (q : Fin 128) (c : dot_S4000x128_S128x128_S4000x128_1_0_0_1_n_n.contr.Idx) : (dot_S4000x128_S128x128_S4000x128_1_0_0_1_n_n.rhsIdx (ix2 p q) c 0).val = (c ⟨0, by decide⟩).val :=
  dot_S4000x128_S128x128_S4000x128_1_0_0_1_n_n.rhsIdx_val_of_single rfl (ix2 p q) c
theorem rhs1_a (p : Fin 4000) (q : Fin 128) (c : dot_S4000x128_S128x128_S4000x128_1_0_0_1_n_n.contr.Idx) : (dot_S4000x128_S128x128_S4000x128_1_0_0_1_n_n.rhsIdx (ix2 p q) c 1).val = q.val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- The matrix unit's product into a zero accumulator, at entry `(p, q)`: the sum over the contracted axis. -/
theorem mm_a {φ₁ φ₂ : FTy} (l : FVec Ideal S4000x128 φ₁) (r : FVec Ideal S128x128 φ₂) (p : Fin 4000) (q : Fin 128) :
    matmul dot_S4000x128_S128x128_S4000x128_1_0_0_1_n_n none l r (constant S4000x128 .f32 0x00000000#32) (ix2 p q)
      = ∑ k : Fin 128, l (ix2 p k) * r (ix2 k q) := by
  simp only [matmul]
  rw [Ideal.matmul_constant_zero_apply, ← Equiv.sum_comp (ValueIdx.contrEquiv1 dot_S4000x128_S128x128_S4000x128_1_0_0_1_n_n 128 rfl rfl).symm]
  refine Finset.sum_congr rfl fun k _ => ?_
  have hk := ValueIdx.contrEquiv1_symm_val dot_S4000x128_S128x128_S4000x128_1_0_0_1_n_n 128 rfl rfl k
  have el : dot_S4000x128_S128x128_S4000x128_1_0_0_1_n_n.lhsIdx (ix2 p q) ((ValueIdx.contrEquiv1 dot_S4000x128_S128x128_S4000x128_1_0_0_1_n_n 128 rfl rfl).symm k) = ix2 p k := funext fun a => Fin.ext (by
    match a with
    | ⟨0, _⟩ => exact lhs0_a _ _ _
    | ⟨1, _⟩ => exact (lhs1_a _ _ _).trans hk)
  have er : dot_S4000x128_S128x128_S4000x128_1_0_0_1_n_n.rhsIdx (ix2 p q) ((ValueIdx.contrEquiv1 dot_S4000x128_S128x128_S4000x128_1_0_0_1_n_n 128 rfl rfl).symm k) = ix2 k q := funext fun a => Fin.ext (by
    match a with
    | ⟨0, _⟩ => exact (rhs0_a _ _ _).trans hk
    | ⟨1, _⟩ => exact rhs1_a _ _ _)
  rw [el, er]

/-! ### The 4000×128 by 128×64 product -/

theorem lhs0_b (p : Fin 4000) (q : Fin 64) (c : dot_S4000x128_S128x64_S4000x64_1_0_0_1_n_n.contr.Idx) : (dot_S4000x128_S128x64_S4000x64_1_0_0_1_n_n.lhsIdx (ix2 p q) c 0).val = p.val := by
  unfold DotDims.lhsIdx
  rw [dif_neg (show ¬(0 : Fin S4000x128.rank) ∈ dot_S4000x128_S128x64_S4000x64_1_0_0_1_n_n.lhsBatch by decide), dif_pos (show (0 : Fin S4000x128.rank) ∈ dot_S4000x128_S128x64_S4000x64_1_0_0_1_n_n.lhsNonContracting by decide)]
  rfl
theorem lhs1_b (p : Fin 4000) (q : Fin 64) (c : dot_S4000x128_S128x64_S4000x64_1_0_0_1_n_n.contr.Idx) : (dot_S4000x128_S128x64_S4000x64_1_0_0_1_n_n.lhsIdx (ix2 p q) c 1).val = (c ⟨0, by decide⟩).val :=
  dot_S4000x128_S128x64_S4000x64_1_0_0_1_n_n.lhsIdx_val_of_single rfl (ix2 p q) c
theorem rhs0_b (p : Fin 4000) (q : Fin 64) (c : dot_S4000x128_S128x64_S4000x64_1_0_0_1_n_n.contr.Idx) : (dot_S4000x128_S128x64_S4000x64_1_0_0_1_n_n.rhsIdx (ix2 p q) c 0).val = (c ⟨0, by decide⟩).val :=
  dot_S4000x128_S128x64_S4000x64_1_0_0_1_n_n.rhsIdx_val_of_single rfl (ix2 p q) c
theorem rhs1_b (p : Fin 4000) (q : Fin 64) (c : dot_S4000x128_S128x64_S4000x64_1_0_0_1_n_n.contr.Idx) : (dot_S4000x128_S128x64_S4000x64_1_0_0_1_n_n.rhsIdx (ix2 p q) c 1).val = q.val := by
  unfold DotDims.rhsIdx
  rw [dif_neg (show ¬(1 : Fin S128x64.rank) ∈ dot_S4000x128_S128x64_S4000x64_1_0_0_1_n_n.rhsBatch by decide), dif_pos (show (1 : Fin S128x64.rank) ∈ dot_S4000x128_S128x64_S4000x64_1_0_0_1_n_n.rhsNonContracting by decide)]
  rfl

/-- The matrix unit's product into a zero accumulator, at entry `(p, q)`: the sum over the contracted axis. -/
theorem mm_b {φ₁ φ₂ : FTy} (l : FVec Ideal S4000x128 φ₁) (r : FVec Ideal S128x64 φ₂) (p : Fin 4000) (q : Fin 64) :
    matmul dot_S4000x128_S128x64_S4000x64_1_0_0_1_n_n none l r (constant S4000x64 .f32 0x00000000#32) (ix2 p q)
      = ∑ k : Fin 128, l (ix2 p k) * r (ix2 k q) := by
  simp only [matmul]
  rw [Ideal.matmul_constant_zero_apply, ← Equiv.sum_comp (ValueIdx.contrEquiv1 dot_S4000x128_S128x64_S4000x64_1_0_0_1_n_n 128 rfl rfl).symm]
  refine Finset.sum_congr rfl fun k _ => ?_
  have hk := ValueIdx.contrEquiv1_symm_val dot_S4000x128_S128x64_S4000x64_1_0_0_1_n_n 128 rfl rfl k
  have el : dot_S4000x128_S128x64_S4000x64_1_0_0_1_n_n.lhsIdx (ix2 p q) ((ValueIdx.contrEquiv1 dot_S4000x128_S128x64_S4000x64_1_0_0_1_n_n 128 rfl rfl).symm k) = ix2 p k := funext fun a => Fin.ext (by
    match a with
    | ⟨0, _⟩ => exact lhs0_b _ _ _
    | ⟨1, _⟩ => exact (lhs1_b _ _ _).trans hk)
  have er : dot_S4000x128_S128x64_S4000x64_1_0_0_1_n_n.rhsIdx (ix2 p q) ((ValueIdx.contrEquiv1 dot_S4000x128_S128x64_S4000x64_1_0_0_1_n_n 128 rfl rfl).symm k) = ix2 k q := funext fun a => Fin.ext (by
    match a with
    | ⟨0, _⟩ => exact (rhs0_b _ _ _).trans hk
    | ⟨1, _⟩ => exact rhs1_b _ _ _)
  rw [el, er]

/-! ### The 4000×64 by 64×128 product -/

theorem lhs0_c (p : Fin 4000) (q : Fin 128) (c : dot_S4000x64_S64x128_S4000x128_1_0_0_1_n_n.contr.Idx) : (dot_S4000x64_S64x128_S4000x128_1_0_0_1_n_n.lhsIdx (ix2 p q) c 0).val = p.val := by
  unfold DotDims.lhsIdx
  rw [dif_neg (show ¬(0 : Fin S4000x64.rank) ∈ dot_S4000x64_S64x128_S4000x128_1_0_0_1_n_n.lhsBatch by decide), dif_pos (show (0 : Fin S4000x64.rank) ∈ dot_S4000x64_S64x128_S4000x128_1_0_0_1_n_n.lhsNonContracting by decide)]
  rfl
theorem lhs1_c (p : Fin 4000) (q : Fin 128) (c : dot_S4000x64_S64x128_S4000x128_1_0_0_1_n_n.contr.Idx) : (dot_S4000x64_S64x128_S4000x128_1_0_0_1_n_n.lhsIdx (ix2 p q) c 1).val = (c ⟨0, by decide⟩).val :=
  dot_S4000x64_S64x128_S4000x128_1_0_0_1_n_n.lhsIdx_val_of_single rfl (ix2 p q) c
theorem rhs0_c (p : Fin 4000) (q : Fin 128) (c : dot_S4000x64_S64x128_S4000x128_1_0_0_1_n_n.contr.Idx) : (dot_S4000x64_S64x128_S4000x128_1_0_0_1_n_n.rhsIdx (ix2 p q) c 0).val = (c ⟨0, by decide⟩).val :=
  dot_S4000x64_S64x128_S4000x128_1_0_0_1_n_n.rhsIdx_val_of_single rfl (ix2 p q) c
theorem rhs1_c (p : Fin 4000) (q : Fin 128) (c : dot_S4000x64_S64x128_S4000x128_1_0_0_1_n_n.contr.Idx) : (dot_S4000x64_S64x128_S4000x128_1_0_0_1_n_n.rhsIdx (ix2 p q) c 1).val = q.val := by
  unfold DotDims.rhsIdx
  rw [dif_neg (show ¬(1 : Fin S64x128.rank) ∈ dot_S4000x64_S64x128_S4000x128_1_0_0_1_n_n.rhsBatch by decide), dif_pos (show (1 : Fin S64x128.rank) ∈ dot_S4000x64_S64x128_S4000x128_1_0_0_1_n_n.rhsNonContracting by decide)]
  rfl

/-- The matrix unit's product into a zero accumulator, at entry `(p, q)`: the sum over the contracted axis. -/
theorem mm_c {φ₁ φ₂ : FTy} (l : FVec Ideal S4000x64 φ₁) (r : FVec Ideal S64x128 φ₂) (p : Fin 4000) (q : Fin 128) :
    matmul dot_S4000x64_S64x128_S4000x128_1_0_0_1_n_n none l r (constant S4000x128 .f32 0x00000000#32) (ix2 p q)
      = ∑ k : Fin 64, l (ix2 p k) * r (ix2 k q) := by
  simp only [matmul]
  rw [Ideal.matmul_constant_zero_apply, ← Equiv.sum_comp (ValueIdx.contrEquiv1 dot_S4000x64_S64x128_S4000x128_1_0_0_1_n_n 64 rfl rfl).symm]
  refine Finset.sum_congr rfl fun k _ => ?_
  have hk := ValueIdx.contrEquiv1_symm_val dot_S4000x64_S64x128_S4000x128_1_0_0_1_n_n 64 rfl rfl k
  have el : dot_S4000x64_S64x128_S4000x128_1_0_0_1_n_n.lhsIdx (ix2 p q) ((ValueIdx.contrEquiv1 dot_S4000x64_S64x128_S4000x128_1_0_0_1_n_n 64 rfl rfl).symm k) = ix2 p k := funext fun a => Fin.ext (by
    match a with
    | ⟨0, _⟩ => exact lhs0_c _ _ _
    | ⟨1, _⟩ => exact (lhs1_c _ _ _).trans hk)
  have er : dot_S4000x64_S64x128_S4000x128_1_0_0_1_n_n.rhsIdx (ix2 p q) ((ValueIdx.contrEquiv1 dot_S4000x64_S64x128_S4000x128_1_0_0_1_n_n 64 rfl rfl).symm k) = ix2 k q := funext fun a => Fin.ext (by
    match a with
    | ⟨0, _⟩ => exact (rhs0_c _ _ _).trans hk
    | ⟨1, _⟩ => exact rhs1_c _ _ _)
  rw [el, er]

/-- A column broadcast along the rows' entries: entry `(p, q)` is the column's entry `(p, 0)`. -/
theorem bcol_128 (v : FVec Ideal S4000x1 .f32) (p : Fin 4000) (q : Fin 128) :
    broadcastTo S4000x128 v broadcasts_S4000x1_S4000x128 (ix2 p q) = v (ix2 p ⟨0, Nat.one_pos⟩) :=
  broadcastTo_apply v broadcasts_S4000x1_S4000x128 (ix2 p q) (ix2 p ⟨0, Nat.one_pos⟩) (fun a => by
    match a with
    | ⟨0, _⟩ => rfl
    | ⟨1, _⟩ => rfl)

/-- A column broadcast along the rows' entries: entry `(p, q)` is the column's entry `(p, 0)`. -/
theorem bcol_64 (v : FVec Ideal S4000x1 .f32) (p : Fin 4000) (q : Fin 64) :
    broadcastTo S4000x64 v broadcasts_S4000x1_S4000x64 (ix2 p q) = v (ix2 p ⟨0, Nat.one_pos⟩) :=
  broadcastTo_apply v broadcasts_S4000x1_S4000x64 (ix2 p q) (ix2 p ⟨0, Nat.one_pos⟩) (fun a => by
    match a with
    | ⟨0, _⟩ => rfl
    | ⟨1, _⟩ => rfl)

/-- A vector laid along every row: entry `(p, q)` is the vector's entry `q`. -/
theorem brow_128 (v : FVec Ideal S128 .f32) (p : Fin 4000) (q : Fin 128) :
    broadcastTo S4000x128 (shapeCast S1x128 v shapeCasts_S128_S1x128) broadcasts_S1x128_S4000x128 (ix2 p q) = v (ix1 q) := by
  rw [broadcastTo_apply (shapeCast S1x128 v shapeCasts_S128_S1x128) broadcasts_S1x128_S4000x128 (ix2 p q) (ix2 ⟨0, Nat.one_pos⟩ q) (fun a => by
    match a with
    | ⟨0, _⟩ => rfl
    | ⟨1, _⟩ => rfl)]
  exact shapeCast_apply v shapeCasts_S128_S1x128 (ix2 ⟨0, Nat.one_pos⟩ q) (ix1 q) (by
    rw [Shape.rowMajor_val_one, Shape.rowMajor_val_two]
    show q.val = 0 * _ + q.val
    omega)

/-- A vector laid along every row: entry `(p, q)` is the vector's entry `q`. -/
theorem brow_64 (v : FVec Ideal S64 .f32) (p : Fin 4000) (q : Fin 64) :
    broadcastTo S4000x64 (shapeCast S1x64 v shapeCasts_S64_S1x64) broadcasts_S1x64_S4000x64 (ix2 p q) = v (ix1 q) := by
  rw [broadcastTo_apply (shapeCast S1x64 v shapeCasts_S64_S1x64) broadcasts_S1x64_S4000x64 (ix2 p q) (ix2 ⟨0, Nat.one_pos⟩ q) (fun a => by
    match a with
    | ⟨0, _⟩ => rfl
    | ⟨1, _⟩ => rfl)]
  exact shapeCast_apply v shapeCasts_S64_S1x64 (ix2 ⟨0, Nat.one_pos⟩ q) (ix1 q) (by
    rw [Shape.rowMajor_val_one, Shape.rowMajor_val_two]
    show q.val = 0 * _ + q.val
    omega)

/-! ## The payloads -/

/-- Layer 1's first store: the layer's formula of the loaded blocks. -/
theorem pay0_1_eq (v0 : Vec Ideal S4000x1 .f32) (v2 v7 : Vec Ideal S4000x128 .f32) (v9 v11 : Vec Ideal S128x128 .f32)
    (v14 : Vec Ideal S128 .f32) :
    k0_pay1 v0 v2 v7 v9 v11 v14 = conv (scaled v2 v0) v9 v14 v7 v11 := by
  funext i
  obtain ⟨p, q, rfl⟩ : ∃ (p : Fin 4000) (q : Fin 128), i = ix2 p q := ⟨i 0, i 1, eq_ix2 i⟩
  unfold k0_pay1 conv scaled
  simp only [maximumf_apply, addf_apply, broadcast_apply, mm_a, truncf_apply, mulf_apply, shapeCast_self, bcol_128, brow_128]
  rfl

/-- Layer 1's second store: the first store's value projected by the second layer's neighbour weights. -/
theorem pay0_2_eq (v0 : Vec Ideal S4000x1 .f32) (v2 v7 : Vec Ideal S4000x128 .f32) (v9 v11 : Vec Ideal S128x128 .f32)
    (v14 : Vec Ideal S128 .f32) (v24 : Vec Ideal S128x64 .f32) :
    k0_pay2 v0 v2 v7 v9 v11 v14 v24 = lin (conv (scaled v2 v0) v9 v14 v7 v11) v24 := by
  funext i
  obtain ⟨p, q, rfl⟩ : ∃ (p : Fin 4000) (q : Fin 64), i = ix2 p q := ⟨i 0, i 1, eq_ix2 i⟩
  unfold k0_pay2 lin
  simp only [mm_b, truncf_apply, pay0_1_eq]

/-- Layer 2's first store: the layer's formula with the projected aggregate scaled by the inverse degree. -/
theorem pay1_1_eq (v0 : Vec Ideal S4000x1 .f32) (v2 : Vec Ideal S4000x64 .f32) (v6 : Vec Ideal S4000x128 .f32)
    (v9 : Vec Ideal S128x64 .f32) (v11 : Vec Ideal S64 .f32) :
    k1_pay1 v0 v2 v6 v9 v11 = convPre v2 v0 v11 v6 v9 := by
  funext i
  obtain ⟨p, q, rfl⟩ : ∃ (p : Fin 4000) (q : Fin 64), i = ix2 p q := ⟨i 0, i 1, eq_ix2 i⟩
  unfold k1_pay1 convPre
  simp only [maximumf_apply, addf_apply, broadcast_apply, mm_b, truncf_apply, mulf_apply, shapeCast_self, bcol_64, brow_64]
  rfl

/-- Layer 2's second store: the affine head of the first store's value. -/
theorem pay1_2_eq (v0 : Vec Ideal S4000x1 .f32) (v2 : Vec Ideal S4000x64 .f32) (v6 : Vec Ideal S4000x128 .f32)
    (v9 : Vec Ideal S128x64 .f32) (v11 : Vec Ideal S64 .f32) (v21 : Vec Ideal S64x128 .f32) (v25 : Vec Ideal S128 .f32) :
    k1_pay2 v0 v2 v6 v9 v11 v21 v25 = head (convPre v2 v0 v11 v6 v9) v21 v25 := by
  funext i
  obtain ⟨p, q, rfl⟩ : ∃ (p : Fin 4000) (q : Fin 128), i = ix2 p q := ⟨i 0, i 1, eq_ix2 i⟩
  unfold k1_pay2 head
  simp only [addf_apply, mm_c, truncf_apply, shapeCast_self, brow_128, pay1_1_eq]

end Cert.KernelIdeal.Body

end
-- ==== Proof.Layer1.lean ====
/-
  The layer-1 call: what its two result arrays hold when it returns, as functions of the arrays it was entered with.

  The grid has ten points; point `t` works on rows `4000·t … 4000·t + 3999` of the aggregate, of `x` and of the
  inverse-degree column, and on the whole weight matrices. The body's formulas are row-wise, so what point `t` writes
  back is rows `4000·t …` of the whole-array formula, and the ten blocks tile the 40000 rows.
-/
import proofs.«119127_j5686536700270_2_alg».proof.Proof.Gen.KernelIdeal.Frame
import proofs.«119127_j5686536700270_2_alg».proof.Proof.KBody
import Idealize.ShloMosaic.Lib.Pipeline.Value

set_option maxRecDepth 16384

noncomputable section

namespace Cert.KernelIdeal.Layer1

open Cert.KernelIdeal Cert.KernelIdeal.Gen Cert.Proof.Sage
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The array row that row `r` of point `t`'s blocks is. -/
def rowOf (t : Fin cfg0.N) (r : Fin 4000) : Fin 40000 :=
  ⟨t.val * 4000 + r.val, by
    have h : t.val < 10 := Nat.lt_of_lt_of_eq t.isLt (show cfg0.N = 10 from N_0)
    have := r.isLt; omega⟩

/-! ## The printed index maps, decided over the ten grid points -/

theorem idx_0 : ∀ t : Fin cfg0.N, win0_0.index t (0 : Fin 2) = t.val ∧ win0_0.index t (1 : Fin 2) = 0 :=
  (by decide +kernel : ∀ t : Fin grid0.N, _)

theorem idx_1 : ∀ t : Fin cfg0.N, win0_1.index t (0 : Fin 2) = t.val ∧ win0_1.index t (1 : Fin 2) = 0 :=
  (by decide +kernel : ∀ t : Fin grid0.N, _)

theorem idx_2 : ∀ t : Fin cfg0.N, win0_2.index t (0 : Fin 2) = t.val ∧ win0_2.index t (1 : Fin 2) = 0 :=
  (by decide +kernel : ∀ t : Fin grid0.N, _)

theorem idx_3 : ∀ t : Fin cfg0.N, win0_3.index t (0 : Fin 2) = 0 ∧ win0_3.index t (1 : Fin 2) = 0 :=
  (by decide +kernel : ∀ t : Fin grid0.N, _)

theorem idx_4 : ∀ t : Fin cfg0.N, win0_4.index t (0 : Fin 1) = 0 :=
  (by decide +kernel : ∀ t : Fin grid0.N, _)

theorem idx_5 : ∀ t : Fin cfg0.N, win0_5.index t (0 : Fin 2) = 0 ∧ win0_5.index t (1 : Fin 2) = 0 :=
  (by decide +kernel : ∀ t : Fin grid0.N, _)

theorem idx_6 : ∀ t : Fin cfg0.N, win0_6.index t (0 : Fin 2) = 0 ∧ win0_6.index t (1 : Fin 2) = 0 :=
  (by decide +kernel : ∀ t : Fin grid0.N, _)

theorem idx_7 : ∀ t : Fin cfg0.N, win0_7.index t (0 : Fin 2) = t.val ∧ win0_7.index t (1 : Fin 2) = 0 :=
  (by decide +kernel : ∀ t : Fin grid0.N, _)

theorem idx_8 : ∀ t : Fin cfg0.N, win0_8.index t (0 : Fin 2) = t.val ∧ win0_8.index t (1 : Fin 2) = 0 :=
  (by decide +kernel : ∀ t : Fin grid0.N, _)

/-! ## The input blocks, read at an entry -/

theorem iblk_0 (c : Dev nD) (t : Fin cfg0.N) (r : Fin 4000) (k : Fin 128) :
    (iblk0 V c 0 t : Vec Ideal S4000x128 .f32) (ix2 r k) = (V c main_v22 : S40000x128.Idx → EReal) (ix2 (rowOf t r) k) := by
  unfold iblk0
  rw [View.read_apply]
  show V c main_v22 _ = V c main_v22 _
  congr 1
  funext a
  apply Fin.ext
  obtain ⟨e0, e1⟩ := idx_0 t
  match a with
  | ⟨0, _⟩ => show win0_0.index t 0 * 4000 + 1 * r.val = t.val * 4000 + r.val; rw [e0]; omega
  | ⟨1, _⟩ => show win0_0.index t 1 * 128 + 1 * k.val = k.val; rw [e1]; omega

theorem iblk_1 (c : Dev nD) (t : Fin cfg0.N) (r : Fin 4000) (k : Fin 128) :
    (iblk0 V c 1 t : Vec Ideal S4000x128 .f32) (ix2 r k) = (V c main_arg0 : S40000x128.Idx → EReal) (ix2 (rowOf t r) k) := by
  unfold iblk0
  rw [View.read_apply]
  show V c main_arg0 _ = V c main_arg0 _
  congr 1
  funext a
  apply Fin.ext
  obtain ⟨e0, e1⟩ := idx_1 t
  match a with
  | ⟨0, _⟩ => show win0_1.index t 0 * 4000 + 1 * r.val = t.val * 4000 + r.val; rw [e0]; omega
  | ⟨1, _⟩ => show win0_1.index t 1 * 128 + 1 * k.val = k.val; rw [e1]; omega

theorem iblk_2 (c : Dev nD) (t : Fin cfg0.N) (r : Fin 4000) (k : Fin 1) :
    (iblk0 V c 2 t : Vec Ideal S4000x1 .f32) (ix2 r k) = (V c main_v12 : S40000x1.Idx → EReal) (ix2 (rowOf t r) k) := by
  unfold iblk0
  rw [View.read_apply]
  show V c main_v12 _ = V c main_v12 _
  congr 1
  funext a
  apply Fin.ext
  obtain ⟨e0, e1⟩ := idx_2 t
  match a with
  | ⟨0, _⟩ => show win0_2.index t 0 * 4000 + 1 * r.val = t.val * 4000 + r.val; rw [e0]; omega
  | ⟨1, _⟩ => show win0_2.index t 1 * 1 + 1 * k.val = k.val; rw [e1]; omega

theorem iblk_3 (c : Dev nD) (t : Fin cfg0.N) : (iblk0 V c 3 t : Vec Ideal S128x128 .f32) = (V c main_arg2 : S128x128.Idx → EReal) := by
  funext y
  unfold iblk0
  rw [View.read_apply]
  show V c main_arg2 _ = V c main_arg2 _
  congr 1
  funext a
  apply Fin.ext
  obtain ⟨e0, e1⟩ := idx_3 t
  match a with
  | ⟨0, _⟩ => show win0_3.index t 0 * 128 + 1 * (y 0).val = (y 0).val; rw [e0]; omega
  | ⟨1, _⟩ => show win0_3.index t 1 * 128 + 1 * (y 1).val = (y 1).val; rw [e1]; omega

theorem iblk_4 (c : Dev nD) (t : Fin cfg0.N) : (iblk0 V c 4 t : Vec Ideal S128 .f32) = (V c main_arg3 : S128.Idx → EReal) := by
  funext y
  unfold iblk0
  rw [View.read_apply]
  show V c main_arg3 _ = V c main_arg3 _
  congr 1
  funext a
  apply Fin.ext
  have e0 := idx_4 t
  match a with
  | ⟨0, _⟩ => show win0_4.index t 0 * 128 + 1 * (y 0).val = (y 0).val; rw [e0]; omega

theorem iblk_5 (c : Dev nD) (t : Fin cfg0.N) : (iblk0 V c 5 t : Vec Ideal S128x128 .f32) = (V c main_arg4 : S128x128.Idx → EReal) := by
  funext y
  unfold iblk0
  rw [View.read_apply]
  show V c main_arg4 _ = V c main_arg4 _
  congr 1
  funext a
  apply Fin.ext
  obtain ⟨e0, e1⟩ := idx_5 t
  match a with
  | ⟨0, _⟩ => show win0_5.index t 0 * 128 + 1 * (y 0).val = (y 0).val; rw [e0]; omega
  | ⟨1, _⟩ => show win0_5.index t 1 * 128 + 1 * (y 1).val = (y 1).val; rw [e1]; omega

theorem iblk_6 (c : Dev nD) (t : Fin cfg0.N) : (iblk0 V c 6 t : Vec Ideal S128x64 .f32) = (V c main_arg5 : S128x64.Idx → EReal) := by
  funext y
  unfold iblk0
  rw [View.read_apply]
  show V c main_arg5 _ = V c main_arg5 _
  congr 1
  funext a
  apply Fin.ext
  obtain ⟨e0, e1⟩ := idx_6 t
  match a with
  | ⟨0, _⟩ => show win0_6.index t 0 * 128 + 1 * (y 0).val = (y 0).val; rw [e0]; omega
  | ⟨1, _⟩ => show win0_6.index t 1 * 64 + 1 * (y 1).val = (y 1).val; rw [e1]; omega

/-! ## The two results as whole-array formulas of the entry contents -/

/-- The hidden layer: the layer's formula of the aggregate scaled by the inverse degrees, and of `x`. -/
abbrev hidden (c : Dev nD) : S40000x128.Idx → EReal :=
  conv (scaled (V c main_v22) (V c main_v12)) (V c main_arg2) (V c main_arg3) (V c main_arg0) (V c main_arg4)

/-- Its projection by the second layer's neighbour weights. -/
abbrev projected (c : Dev nD) : S40000x64.Idx → EReal := lin (hidden V c) (V c main_arg5)

/-- Row `r` of the block formula at point `t` is row `rowOf t r` of the array formula. -/
theorem hidden_blk (c : Dev nD) (t : Fin cfg0.N) (r : Fin 4000) (q : Fin 128) :
    conv (scaled (iblk0 V c 0 t) (iblk0 V c 2 t)) (iblk0 V c 3 t) (iblk0 V c 4 t) (iblk0 V c 1 t) (iblk0 V c 5 t) (ix2 r q)
      = hidden V c (ix2 (rowOf t r) q) := by
  rw [iblk_3, iblk_4, iblk_5]
  unfold hidden conv scaled
  simp only [iblk_0, iblk_1, iblk_2]

theorem projected_blk (c : Dev nD) (t : Fin cfg0.N) (r : Fin 4000) (q : Fin 64) :
    lin (conv (scaled (iblk0 V c 0 t) (iblk0 V c 2 t)) (iblk0 V c 3 t) (iblk0 V c 4 t) (iblk0 V c 1 t) (iblk0 V c 5 t)) (iblk0 V c 6 t) (ix2 r q)
      = projected V c (ix2 (rowOf t r) q) := by
  rw [iblk_6]
  unfold projected lin
  simp only [hidden_blk]

/-! ## What each point writes back, and the arrays when the call returns -/

/-- Point `t` writes back rows `4000·t …` of `hidden`. -/
theorem flushed7 (c : Dev nD) (t : Fin cfg0.N) :
    (dat0 V c).flushed 7 t = ((cfg0.win 7).blk t).view.read (Elt Ideal) (hidden V c) := by
  show (cfg0.win 7).cut (grid0.coords t) ((dat0 V c).after 7 t) = _
  rw [after0_7]
  unfold out0_7
  rw [View.canon_unit_zero hz2]
  simp only [View.ld_unit_zero (S := S4000x128) hz2, View.ld_unit_zero (S := S4000x1) hz2, View.ld_unit_zero (S := S128x128) hz2, View.ld_unit_zero (S := S128) hz1]
  rw [Body.pay0_1_eq]
  funext y
  obtain ⟨r, q, rfl⟩ : ∃ (r : Fin 4000) (q : Fin 128), y = ix2 r q := ⟨y 0, y 1, eq_ix2 y⟩
  have he : ((cfg0.win 7).blk t).view.emb (ix2 r q) = (ix2 (rowOf t r) q : S40000x128.Idx) := by
    funext a
    apply Fin.ext
    obtain ⟨e0, e1⟩ := idx_7 t
    match a with
    | ⟨0, _⟩ => show win0_7.index t 0 * 4000 + 1 * r.val = t.val * 4000 + r.val; rw [e0]; omega
    | ⟨1, _⟩ => show win0_7.index t 1 * 128 + 1 * q.val = q.val; rw [e1]; omega
  show conv (scaled (iblk0 V c 0 t) (iblk0 V c 2 t)) (iblk0 V c 3 t) (iblk0 V c 4 t) (iblk0 V c 1 t) (iblk0 V c 5 t) (ix2 r q) = hidden V c (((cfg0.win 7).blk t).view.emb (ix2 r q))
  rw [he]
  exact hidden_blk V c t r q

theorem mem_blk7 (t : Fin cfg0.N) (i : S40000x128.Idx) :
    i ∈ ((cfg0.win 7).blk t).view.set ↔ ∀ a : Fin 2, win0_7.index t a * S4000x128.size a ≤ (i a).val
      ∧ (i a).val < win0_7.index t a * S4000x128.size a + S4000x128.size a := by
  show i ∈ ((View.whole main_v23_0).slice (win0_7.rect t)).set ↔ _
  rw [View.set_slice_whole, Rect.mem_set_unit]
  exact Iff.rfl

/-- Row `n` is in the block of point `n / 4000`. -/
theorem cover7 (i : S40000x128.Idx) : ∃ t : Fin cfg0.N, (cfg0.win 7).flush t = true ∧ i ∈ ((cfg0.win 7).blk t).view.set := by
  have hi0 : (i 0).val < 40000 := (i 0).isLt
  have hi1 : (i 1).val < 128 := (i 1).isLt
  obtain ⟨t, ht⟩ : ∃ t : Fin cfg0.N, t.val = (i 0).val / 4000 := ⟨⟨(i 0).val / 4000, by rw [show cfg0.N = 10 from N_0]; omega⟩, rfl⟩
  refine ⟨t, flush0_7 t, ?_⟩
  rw [mem_blk7]
  obtain ⟨e0, e1⟩ := idx_7 t
  intro a
  match a with
  | ⟨0, _⟩ =>
    show win0_7.index t 0 * 4000 ≤ (i 0).val ∧ (i 0).val < win0_7.index t 0 * 4000 + 4000
    rw [e0, ht]; omega
  | ⟨1, _⟩ =>
    show win0_7.index t 1 * 128 ≤ (i 1).val ∧ (i 1).val < win0_7.index t 1 * 128 + 128
    rw [e1]; omega

/-- The array when the call returns. -/
theorem final7 (c : Dev nD) : (dat0 V c).arrAt 7 cfg0.N = hidden V c :=
  (dat0 V c).arrAt_eq_of_cover 7 (hidden V c) (fun t _ => flushed7 V c t) (cover7)

/-- Point `t` writes back rows `4000·t …` of `projected`. -/
theorem flushed8 (c : Dev nD) (t : Fin cfg0.N) :
    (dat0 V c).flushed 8 t = ((cfg0.win 8).blk t).view.read (Elt Ideal) (projected V c) := by
  show (cfg0.win 8).cut (grid0.coords t) ((dat0 V c).after 8 t) = _
  rw [after0_8]
  unfold out0_8
  rw [View.canon_unit_zero hz2]
  simp only [View.ld_unit_zero (S := S4000x128) hz2, View.ld_unit_zero (S := S4000x1) hz2, View.ld_unit_zero (S := S128x128) hz2, View.ld_unit_zero (S := S128) hz1, View.ld_unit_zero (S := S128x64) hz2]
  rw [Body.pay0_2_eq]
  funext y
  obtain ⟨r, q, rfl⟩ : ∃ (r : Fin 4000) (q : Fin 64), y = ix2 r q := ⟨y 0, y 1, eq_ix2 y⟩
  have he : ((cfg0.win 8).blk t).view.emb (ix2 r q) = (ix2 (rowOf t r) q : S40000x64.Idx) := by
    funext a
    apply Fin.ext
    obtain ⟨e0, e1⟩ := idx_8 t
    match a with
    | ⟨0, _⟩ => show win0_8.index t 0 * 4000 + 1 * r.val = t.val * 4000 + r.val; rw [e0]; omega
    | ⟨1, _⟩ => show win0_8.index t 1 * 64 + 1 * q.val = q.val; rw [e1]; omega
  show lin (conv (scaled (iblk0 V c 0 t) (iblk0 V c 2 t)) (iblk0 V c 3 t) (iblk0 V c 4 t) (iblk0 V c 1 t) (iblk0 V c 5 t)) (iblk0 V c 6 t) (ix2 r q) = projected V c (((cfg0.win 8).blk t).view.emb (ix2 r q))
  rw [he]
  exact projected_blk V c t r q

theorem mem_blk8 (t : Fin cfg0.N) (i : S40000x64.Idx) :
    i ∈ ((cfg0.win 8).blk t).view.set ↔ ∀ a : Fin 2, win0_8.index t a * S4000x64.size a ≤ (i a).val
      ∧ (i a).val < win0_8.index t a * S4000x64.size a + S4000x64.size a := by
  show i ∈ ((View.whole main_v23_1).slice (win0_8.rect t)).set ↔ _
  rw [View.set_slice_whole, Rect.mem_set_unit]
  exact Iff.rfl

/-- Row `n` is in the block of point `n / 4000`. -/
theorem cover8 (i : S40000x64.Idx) : ∃ t : Fin cfg0.N, (cfg0.win 8).flush t = true ∧ i ∈ ((cfg0.win 8).blk t).view.set := by
  have hi0 : (i 0).val < 40000 := (i 0).isLt
  have hi1 : (i 1).val < 64 := (i 1).isLt
  obtain ⟨t, ht⟩ : ∃ t : Fin cfg0.N, t.val = (i 0).val / 4000 := ⟨⟨(i 0).val / 4000, by rw [show cfg0.N = 10 from N_0]; omega⟩, rfl⟩
  refine ⟨t, flush0_8 t, ?_⟩
  rw [mem_blk8]
  obtain ⟨e0, e1⟩ := idx_8 t
  intro a
  match a with
  | ⟨0, _⟩ =>
    show win0_8.index t 0 * 4000 ≤ (i 0).val ∧ (i 0).val < win0_8.index t 0 * 4000 + 4000
    rw [e0, ht]; omega
  | ⟨1, _⟩ =>
    show win0_8.index t 1 * 64 ≤ (i 1).val ∧ (i 1).val < win0_8.index t 1 * 64 + 64
    rw [e1]; omega

/-- The array when the call returns. -/
theorem final8 (c : Dev nD) : (dat0 V c).arrAt 8 cfg0.N = projected V c :=
  (dat0 V c).arrAt_eq_of_cover 8 (projected V c) (fun t _ => flushed8 V c t) (cover8)

end Cert.KernelIdeal.Layer1

end
-- ==== Proof.Layer2.lean ====
/-
  The layer-2 call: what its two result arrays hold when it returns, as functions of the arrays it was entered with.

  Again ten points, point `t` on rows `4000·t … 4000·t + 3999` of the projected aggregate, of the inverse-degree column
  and of the hidden layer, and on the whole bias, self weights and zero-padded classifier. The body is row-wise, so
  the ten written-back blocks are the rows of the whole-array formulas and tile the 40000 rows.
-/
import proofs.«119127_j5686536700270_2_alg».proof.Proof.Gen.KernelIdeal.Frame
import proofs.«119127_j5686536700270_2_alg».proof.Proof.KBody
import Idealize.ShloMosaic.Lib.Pipeline.Value

set_option maxRecDepth 16384

noncomputable section

namespace Cert.KernelIdeal.Layer2

open Cert.KernelIdeal Cert.KernelIdeal.Gen Cert.Proof.Sage
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The array row that row `r` of point `t`'s blocks is. -/
def rowOf (t : Fin cfg1.N) (r : Fin 4000) : Fin 40000 :=
  ⟨t.val * 4000 + r.val, by
    have h : t.val < 10 := Nat.lt_of_lt_of_eq t.isLt (show cfg1.N = 10 from N_1)
    have := r.isLt; omega⟩

/-! ## The printed index maps, decided over the ten grid points -/

theorem idx_0 : ∀ t : Fin cfg1.N, win1_0.index t (0 : Fin 2) = t.val ∧ win1_0.index t (1 : Fin 2) = 0 :=
  (by decide +kernel : ∀ t : Fin grid1.N, _)

theorem idx_1 : ∀ t : Fin cfg1.N, win1_1.index t (0 : Fin 2) = t.val ∧ win1_1.index t (1 : Fin 2) = 0 :=
  (by decide +kernel : ∀ t : Fin grid1.N, _)

theorem idx_2 : ∀ t : Fin cfg1.N, win1_2.index t (0 : Fin 2) = t.val ∧ win1_2.index t (1 : Fin 2) = 0 :=
  (by decide +kernel : ∀ t : Fin grid1.N, _)

theorem idx_3 : ∀ t : Fin cfg1.N, win1_3.index t (0 : Fin 1) = 0 :=
  (by decide +kernel : ∀ t : Fin grid1.N, _)

theorem idx_4 : ∀ t : Fin cfg1.N, win1_4.index t (0 : Fin 2) = 0 ∧ win1_4.index t (1 : Fin 2) = 0 :=
  (by decide +kernel : ∀ t : Fin grid1.N, _)

theorem idx_5 : ∀ t : Fin cfg1.N, win1_5.index t (0 : Fin 2) = 0 ∧ win1_5.index t (1 : Fin 2) = 0 :=
  (by decide +kernel : ∀ t : Fin grid1.N, _)

theorem idx_6 : ∀ t : Fin cfg1.N, win1_6.index t (0 : Fin 1) = 0 :=
  (by decide +kernel : ∀ t : Fin grid1.N, _)

theorem idx_7 : ∀ t : Fin cfg1.N, win1_7.index t (0 : Fin 2) = t.val ∧ win1_7.index t (1 : Fin 2) = 0 :=
  (by decide +kernel : ∀ t : Fin grid1.N, _)

theorem idx_8 : ∀ t : Fin cfg1.N, win1_8.index t (0 : Fin 2) = t.val ∧ win1_8.index t (1 : Fin 2) = 0 :=
  (by decide +kernel : ∀ t : Fin grid1.N, _)

/-! ## The input blocks, read at an entry -/

theorem iblk_0 (c : Dev nD) (t : Fin cfg1.N) (r : Fin 4000) (k : Fin 64) :
    (iblk1 V c 0 t : Vec Ideal S4000x64 .f32) (ix2 r k) = (V c main_v33 : S40000x64.Idx → EReal) (ix2 (rowOf t r) k) := by
  unfold iblk1
  rw [View.read_apply]
  show V c main_v33 _ = V c main_v33 _
  congr 1
  funext a
  apply Fin.ext
  obtain ⟨e0, e1⟩ := idx_0 t
  match a with
  | ⟨0, _⟩ => show win1_0.index t 0 * 4000 + 1 * r.val = t.val * 4000 + r.val; rw [e0]; omega
  | ⟨1, _⟩ => show win1_0.index t 1 * 64 + 1 * k.val = k.val; rw [e1]; omega

theorem iblk_1 (c : Dev nD) (t : Fin cfg1.N) (r : Fin 4000) (k : Fin 1) :
    (iblk1 V c 1 t : Vec Ideal S4000x1 .f32) (ix2 r k) = (V c main_v12 : S40000x1.Idx → EReal) (ix2 (rowOf t r) k) := by
  unfold iblk1
  rw [View.read_apply]
  show V c main_v12 _ = V c main_v12 _
  congr 1
  funext a
  apply Fin.ext
  obtain ⟨e0, e1⟩ := idx_1 t
  match a with
  | ⟨0, _⟩ => show win1_1.index t 0 * 4000 + 1 * r.val = t.val * 4000 + r.val; rw [e0]; omega
  | ⟨1, _⟩ => show win1_1.index t 1 * 1 + 1 * k.val = k.val; rw [e1]; omega

theorem iblk_2 (c : Dev nD) (t : Fin cfg1.N) (r : Fin 4000) (k : Fin 128) :
    (iblk1 V c 2 t : Vec Ideal S4000x128 .f32) (ix2 r k) = (V c main_v23_0 : S40000x128.Idx → EReal) (ix2 (rowOf t r) k) := by
  unfold iblk1
  rw [View.read_apply]
  show V c main_v23_0 _ = V c main_v23_0 _
  congr 1
  funext a
  apply Fin.ext
  obtain ⟨e0, e1⟩ := idx_2 t
  match a with
  | ⟨0, _⟩ => show win1_2.index t 0 * 4000 + 1 * r.val = t.val * 4000 + r.val; rw [e0]; omega
  | ⟨1, _⟩ => show win1_2.index t 1 * 128 + 1 * k.val = k.val; rw [e1]; omega

theorem iblk_3 (c : Dev nD) (t : Fin cfg1.N) : (iblk1 V c 3 t : Vec Ideal S64 .f32) = (V c main_arg6 : S64.Idx → EReal) := by
  funext y
  unfold iblk1
  rw [View.read_apply]
  show V c main_arg6 _ = V c main_arg6 _
  congr 1
  funext a
  apply Fin.ext
  have e0 := idx_3 t
  match a with
  | ⟨0, _⟩ => show win1_3.index t 0 * 64 + 1 * (y 0).val = (y 0).val; rw [e0]; omega

theorem iblk_4 (c : Dev nD) (t : Fin cfg1.N) : (iblk1 V c 4 t : Vec Ideal S128x64 .f32) = (V c main_arg7 : S128x64.Idx → EReal) := by
  funext y
  unfold iblk1
  rw [View.read_apply]
  show V c main_arg7 _ = V c main_arg7 _
  congr 1
  funext a
  apply Fin.ext
  obtain ⟨e0, e1⟩ := idx_4 t
  match a with
  | ⟨0, _⟩ => show win1_4.index t 0 * 128 + 1 * (y 0).val = (y 0).val; rw [e0]; omega
  | ⟨1, _⟩ => show win1_4.index t 1 * 64 + 1 * (y 1).val = (y 1).val; rw [e1]; omega

theorem iblk_5 (c : Dev nD) (t : Fin cfg1.N) : (iblk1 V c 5 t : Vec Ideal S64x128 .f32) = (V c main_v34 : S64x128.Idx → EReal) := by
  funext y
  unfold iblk1
  rw [View.read_apply]
  show V c main_v34 _ = V c main_v34 _
  congr 1
  funext a
  apply Fin.ext
  obtain ⟨e0, e1⟩ := idx_5 t
  match a with
  | ⟨0, _⟩ => show win1_5.index t 0 * 64 + 1 * (y 0).val = (y 0).val; rw [e0]; omega
  | ⟨1, _⟩ => show win1_5.index t 1 * 128 + 1 * (y 1).val = (y 1).val; rw [e1]; omega

theorem iblk_6 (c : Dev nD) (t : Fin cfg1.N) : (iblk1 V c 6 t : Vec Ideal S128 .f32) = (V c main_v35 : S128.Idx → EReal) := by
  funext y
  unfold iblk1
  rw [View.read_apply]
  show V c main_v35 _ = V c main_v35 _
  congr 1
  funext a
  apply Fin.ext
  have e0 := idx_6 t
  match a with
  | ⟨0, _⟩ => show win1_6.index t 0 * 128 + 1 * (y 0).val = (y 0).val; rw [e0]; omega

/-! ## The two results as whole-array formulas of the entry contents -/

/-- The embedding: the layer's formula of the projected aggregate scaled by the inverse degrees, and of the hidden layer. -/
abbrev embedding (c : Dev nD) : S40000x64.Idx → EReal :=
  convPre (V c main_v33) (V c main_v12) (V c main_arg6) (V c main_v23_0) (V c main_arg7)

/-- The head over the zero-padded classifier: 128 columns, of which the first 40 are the logits. -/
abbrev logitsPad (c : Dev nD) : S40000x128.Idx → EReal := head (embedding V c) (V c main_v34) (V c main_v35)

/-- Row `r` of the block formula at point `t` is row `rowOf t r` of the array formula. -/
theorem embedding_blk (c : Dev nD) (t : Fin cfg1.N) (r : Fin 4000) (q : Fin 64) :
    convPre (iblk1 V c 0 t) (iblk1 V c 1 t) (iblk1 V c 3 t) (iblk1 V c 2 t) (iblk1 V c 4 t) (ix2 r q)
      = embedding V c (ix2 (rowOf t r) q) := by
  rw [iblk_3, iblk_4]
  unfold embedding convPre
  simp only [iblk_0, iblk_1, iblk_2]

theorem logitsPad_blk (c : Dev nD) (t : Fin cfg1.N) (r : Fin 4000) (q : Fin 128) :
    head (convPre (iblk1 V c 0 t) (iblk1 V c 1 t) (iblk1 V c 3 t) (iblk1 V c 2 t) (iblk1 V c 4 t)) (iblk1 V c 5 t) (iblk1 V c 6 t) (ix2 r q)
      = logitsPad V c (ix2 (rowOf t r) q) := by
  rw [iblk_5, iblk_6]
  unfold logitsPad head
  simp only [embedding_blk]

/-! ## What each point writes back, and the arrays when the call returns -/

/-- Point `t` writes back rows `4000·t …` of `embedding`. -/
theorem flushed7 (c : Dev nD) (t : Fin cfg1.N) :
    (dat1 V c).flushed 7 t = ((cfg1.win 7).blk t).view.read (Elt Ideal) (embedding V c) := by
  show (cfg1.win 7).cut (grid1.coords t) ((dat1 V c).after 7 t) = _
  rw [after1_7]
  unfold out1_7
  rw [View.canon_unit_zero hz2]
  simp only [View.ld_unit_zero (S := S4000x1) hz2, View.ld_unit_zero (S := S4000x64) hz2, View.ld_unit_zero (S := S4000x128) hz2, View.ld_unit_zero (S := S128x64) hz2, View.ld_unit_zero (S := S64) hz1]
  rw [Body.pay1_1_eq]
  funext y
  obtain ⟨r, q, rfl⟩ : ∃ (r : Fin 4000) (q : Fin 64), y = ix2 r q := ⟨y 0, y 1, eq_ix2 y⟩
  have he : ((cfg1.win 7).blk t).view.emb (ix2 r q) = (ix2 (rowOf t r) q : S40000x64.Idx) := by
    funext a
    apply Fin.ext
    obtain ⟨e0, e1⟩ := idx_7 t
    match a with
    | ⟨0, _⟩ => show win1_7.index t 0 * 4000 + 1 * r.val = t.val * 4000 + r.val; rw [e0]; omega
    | ⟨1, _⟩ => show win1_7.index t 1 * 64 + 1 * q.val = q.val; rw [e1]; omega
  show convPre (iblk1 V c 0 t) (iblk1 V c 1 t) (iblk1 V c 3 t) (iblk1 V c 2 t) (iblk1 V c 4 t) (ix2 r q) = embedding V c (((cfg1.win 7).blk t).view.emb (ix2 r q))
  rw [he]
  exact embedding_blk V c t r q

theorem mem_blk7 (t : Fin cfg1.N) (i : S40000x64.Idx) :
    i ∈ ((cfg1.win 7).blk t).view.set ↔ ∀ a : Fin 2, win1_7.index t a * S4000x64.size a ≤ (i a).val
      ∧ (i a).val < win1_7.index t a * S4000x64.size a + S4000x64.size a := by
  show i ∈ ((View.whole main_v36_0).slice (win1_7.rect t)).set ↔ _
  rw [View.set_slice_whole, Rect.mem_set_unit]
  exact Iff.rfl

/-- Row `n` is in the block of point `n / 4000`. -/
theorem cover7 (i : S40000x64.Idx) : ∃ t : Fin cfg1.N, (cfg1.win 7).flush t = true ∧ i ∈ ((cfg1.win 7).blk t).view.set := by
  have hi0 : (i 0).val < 40000 := (i 0).isLt
  have hi1 : (i 1).val < 64 := (i 1).isLt
  obtain ⟨t, ht⟩ : ∃ t : Fin cfg1.N, t.val = (i 0).val / 4000 := ⟨⟨(i 0).val / 4000, by rw [show cfg1.N = 10 from N_1]; omega⟩, rfl⟩
  refine ⟨t, flush1_7 t, ?_⟩
  rw [mem_blk7]
  obtain ⟨e0, e1⟩ := idx_7 t
  intro a
  match a with
  | ⟨0, _⟩ =>
    show win1_7.index t 0 * 4000 ≤ (i 0).val ∧ (i 0).val < win1_7.index t 0 * 4000 + 4000
    rw [e0, ht]; omega
  | ⟨1, _⟩ =>
    show win1_7.index t 1 * 64 ≤ (i 1).val ∧ (i 1).val < win1_7.index t 1 * 64 + 64
    rw [e1]; omega

/-- The array when the call returns. -/
theorem final7 (c : Dev nD) : (dat1 V c).arrAt 7 cfg1.N = embedding V c :=
  (dat1 V c).arrAt_eq_of_cover 7 (embedding V c) (fun t _ => flushed7 V c t) (cover7)

/-- Point `t` writes back rows `4000·t …` of `logitsPad`. -/
theorem flushed8 (c : Dev nD) (t : Fin cfg1.N) :
    (dat1 V c).flushed 8 t = ((cfg1.win 8).blk t).view.read (Elt Ideal) (logitsPad V c) := by
  show (cfg1.win 8).cut (grid1.coords t) ((dat1 V c).after 8 t) = _
  rw [after1_8]
  unfold out1_8
  rw [View.canon_unit_zero hz2]
  simp only [View.ld_unit_zero (S := S4000x1) hz2, View.ld_unit_zero (S := S4000x64) hz2, View.ld_unit_zero (S := S4000x128) hz2, View.ld_unit_zero (S := S128x64) hz2, View.ld_unit_zero (S := S64) hz1, View.ld_unit_zero (S := S64x128) hz2, View.ld_unit_zero (S := S128) hz1]
  rw [Body.pay1_2_eq]
  funext y
  obtain ⟨r, q, rfl⟩ : ∃ (r : Fin 4000) (q : Fin 128), y = ix2 r q := ⟨y 0, y 1, eq_ix2 y⟩
  have he : ((cfg1.win 8).blk t).view.emb (ix2 r q) = (ix2 (rowOf t r) q : S40000x128.Idx) := by
    funext a
    apply Fin.ext
    obtain ⟨e0, e1⟩ := idx_8 t
    match a with
    | ⟨0, _⟩ => show win1_8.index t 0 * 4000 + 1 * r.val = t.val * 4000 + r.val; rw [e0]; omega
    | ⟨1, _⟩ => show win1_8.index t 1 * 128 + 1 * q.val = q.val; rw [e1]; omega
  show head (convPre (iblk1 V c 0 t) (iblk1 V c 1 t) (iblk1 V c 3 t) (iblk1 V c 2 t) (iblk1 V c 4 t)) (iblk1 V c 5 t) (iblk1 V c 6 t) (ix2 r q) = logitsPad V c (((cfg1.win 8).blk t).view.emb (ix2 r q))
  rw [he]
  exact logitsPad_blk V c t r q

theorem mem_blk8 (t : Fin cfg1.N) (i : S40000x128.Idx) :
    i ∈ ((cfg1.win 8).blk t).view.set ↔ ∀ a : Fin 2, win1_8.index t a * S4000x128.size a ≤ (i a).val
      ∧ (i a).val < win1_8.index t a * S4000x128.size a + S4000x128.size a := by
  show i ∈ ((View.whole main_v36_1).slice (win1_8.rect t)).set ↔ _
  rw [View.set_slice_whole, Rect.mem_set_unit]
  exact Iff.rfl

/-- Row `n` is in the block of point `n / 4000`. -/
theorem cover8 (i : S40000x128.Idx) : ∃ t : Fin cfg1.N, (cfg1.win 8).flush t = true ∧ i ∈ ((cfg1.win 8).blk t).view.set := by
  have hi0 : (i 0).val < 40000 := (i 0).isLt
  have hi1 : (i 1).val < 128 := (i 1).isLt
  obtain ⟨t, ht⟩ : ∃ t : Fin cfg1.N, t.val = (i 0).val / 4000 := ⟨⟨(i 0).val / 4000, by rw [show cfg1.N = 10 from N_1]; omega⟩, rfl⟩
  refine ⟨t, flush1_8 t, ?_⟩
  rw [mem_blk8]
  obtain ⟨e0, e1⟩ := idx_8 t
  intro a
  match a with
  | ⟨0, _⟩ =>
    show win1_8.index t 0 * 4000 ≤ (i 0).val ∧ (i 0).val < win1_8.index t 0 * 4000 + 4000
    rw [e0, ht]; omega
  | ⟨1, _⟩ =>
    show win1_8.index t 1 * 128 ≤ (i 1).val ∧ (i 1).val < win1_8.index t 1 * 128 + 128
    rw [e1]; omega

/-- The array when the call returns. -/
theorem final8 (c : Dev nD) : (dat1 V c).arrAt 8 cfg1.N = logitsPad V c :=
  (dat1 V c).arrAt_eq_of_cover 8 (logitsPad V c) (fun t _ => flushed8 V c t) (cover8)

end Cert.KernelIdeal.Layer2

end
-- ==== Proof.HostK.lean ====
/-
  The host side of the idealized kernel's @main, read at the buffers the two calls stage and at the results.

  Before the layer-1 call: the aggregate is the accumulating scatter of the gathered rows of `x`, the very term the
  reference computes for its first layer; the inverse-degree column is `1 / max(deg, 1)` laid as a column, over the
  degree term the reference divides by; the edge-index vectors are the reference's. Between the calls: the projected
  hidden layer is gathered and scatter-added with the same index vectors, and the classifier's weights and bias are
  padded with zeros to 128 columns. After the layer-2 call the logits are the first 40 columns of its second result.
-/
import proofs.«119127_j5686536700270_2_alg».proof.Proof.Gen.KernelIdeal.Frame
import proofs.«119127_j5686536700270_2_alg».proof.Proof.Gen.ReferenceIdeal.Read
import proofs.«119127_j5686536700270_2_alg».proof.Proof.Layer1
import proofs.«119127_j5686536700270_2_alg».proof.Proof.Layer2
import Idealize.ShloMosaic.Lib.StableHlo.Run

set_option maxRecDepth 16384

noncomputable section

namespace Cert.KernelIdeal.HostValue

open Cert.KernelIdeal Cert.KernelIdeal.Gen Cert.Proof.Sage
open Idealize.ShloMosaic Idealize.ShloMosaic.TcCoe Idealize.SL.Sem Idealize.ShloMosaic.StableHlo

variable (m : (ℓ : Loc nD τ sig) → Buf (Elt Ideal) ℓ) (ρ : Dev nD → PrngReg)

/-- The inverse-degree column over a degree vector `d`: `1 / d` laid as a column. -/
def invCol (d : S40000.Idx → EReal) : S40000x1.Idx → EReal :=
  broadcastInDim S40000x1 ![0] bcast_S40000_S40000x1_0
    (Host.divf (F := Ideal) (φ := .f32) (broadcastInDim S40000 ![] bcast_S_S40000 (constant (F := Ideal) S_ .f32 0x3F800000#32)) d)

/-- The projected hidden layer, gathered along the edges and added at their targets. -/
def aggProj (P : S40000x64.Idx → EReal) (dst src : S640000x1.Idx → BitVec 32) : S40000x64.Idx → EReal :=
  Host.scatterAdd (F := Ideal) scatter_S40000x64_S640000x1_S640000x64_1_0_0_1
    (broadcastInDim S40000x64 ![] bcast_S_S40000x64 (constant (F := Ideal) S_ .f32 0x00000000#32)) dst
    (Host.gather gather_S40000x64_S640000x1_S640000x64_1_0_n_n_0_1_164 P src)

/-- The classifier's weights with 88 zero columns appended. -/
def padW (w : S64x40.Idx → EReal) : S64x128.Idx → EReal :=
  pad S64x128 ![0, 0] ![0, 88] ![0, 0] w (sitofp (F := Ideal) .f32 (constantI S_ 32 0#32)) pads_S64x40_S64x128_000_0880 h_S_

/-- The classifier's bias with 88 zeros appended. -/
def padB (b : S40.Idx → EReal) : S128.Idx → EReal :=
  pad S128 ![0] ![88] ![0] b (sitofp (F := Ideal) .f32 (constantI S_ 32 0#32)) pads_S40_S128_0880 h_S_

/-! ## Before the layer-1 call -/

set_option maxHeartbeats 4000000 in
theorem W1_v22 (c : Dev nD) :
    (W1 m ρ c (Proc.devRef .tc main_v22) : S40000x128.Idx → EReal)
      = Cert.ReferenceIdeal.Read.val_main_v13 (F := Ideal) (m ((c : Thread nD τ).loc main_arg0)) (m ((c : Thread nD τ).loc main_arg1)) := by
  show StableHlo.after hostOps0 (W0 m ρ c) (Proc.devRef .tc main_v22) = _
  after_results_simp <;> rfl

set_option maxHeartbeats 4000000 in
theorem W1_v12 (c : Dev nD) :
    (W1 m ρ c (Proc.devRef .tc main_v12) : S40000x1.Idx → EReal)
      = invCol (Cert.ReferenceIdeal.Read.val_main_v19 (F := Ideal) (m ((c : Thread nD τ).loc main_arg1))) := by
  show StableHlo.after hostOps0 (W0 m ρ c) (Proc.devRef .tc main_v12) = _
  after_results_simp <;> rfl

set_option maxHeartbeats 4000000 in
theorem W1_v1 (c : Dev nD) :
    (W1 m ρ c (Proc.devRef .tc main_v1) : S640000.Idx → BitVec 32) = Cert.ReferenceIdeal.Read.val_main_v1 (F := Ideal) (m ((c : Thread nD τ).loc main_arg1)) := by
  show StableHlo.after hostOps0 (W0 m ρ c) (Proc.devRef .tc main_v1) = _
  after_results_simp <;> rfl

set_option maxHeartbeats 4000000 in
theorem W1_v3 (c : Dev nD) :
    (W1 m ρ c (Proc.devRef .tc main_v3) : S640000.Idx → BitVec 32) = Cert.ReferenceIdeal.Read.val_main_v3 (F := Ideal) (m ((c : Thread nD τ).loc main_arg1)) := by
  show StableHlo.after hostOps0 (W0 m ρ c) (Proc.devRef .tc main_v3) = _
  after_results_simp <;> rfl

set_option maxHeartbeats 4000000 in
theorem W1_arg0 (c : Dev nD) : W1 m ρ c (Proc.devRef .tc main_arg0) = m ((c : Thread nD τ).loc main_arg0) := by
  show StableHlo.after hostOps0 (W0 m ρ c) (Proc.devRef .tc main_arg0) = _
  after_results_simp <;> rfl

set_option maxHeartbeats 4000000 in
theorem W1_arg2 (c : Dev nD) : W1 m ρ c (Proc.devRef .tc main_arg2) = m ((c : Thread nD τ).loc main_arg2) := by
  show StableHlo.after hostOps0 (W0 m ρ c) (Proc.devRef .tc main_arg2) = _
  after_results_simp <;> rfl

set_option maxHeartbeats 4000000 in
theorem W1_arg3 (c : Dev nD) : W1 m ρ c (Proc.devRef .tc main_arg3) = m ((c : Thread nD τ).loc main_arg3) := by
  show StableHlo.after hostOps0 (W0 m ρ c) (Proc.devRef .tc main_arg3) = _
  after_results_simp <;> rfl

set_option maxHeartbeats 4000000 in
theorem W1_arg4 (c : Dev nD) : W1 m ρ c (Proc.devRef .tc main_arg4) = m ((c : Thread nD τ).loc main_arg4) := by
  show StableHlo.after hostOps0 (W0 m ρ c) (Proc.devRef .tc main_arg4) = _
  after_results_simp <;> rfl

set_option maxHeartbeats 4000000 in
theorem W1_arg5 (c : Dev nD) : W1 m ρ c (Proc.devRef .tc main_arg5) = m ((c : Thread nD τ).loc main_arg5) := by
  show StableHlo.after hostOps0 (W0 m ρ c) (Proc.devRef .tc main_arg5) = _
  after_results_simp <;> rfl

set_option maxHeartbeats 4000000 in
theorem W1_arg6 (c : Dev nD) : W1 m ρ c (Proc.devRef .tc main_arg6) = m ((c : Thread nD τ).loc main_arg6) := by
  show StableHlo.after hostOps0 (W0 m ρ c) (Proc.devRef .tc main_arg6) = _
  after_results_simp <;> rfl

set_option maxHeartbeats 4000000 in
theorem W1_arg7 (c : Dev nD) : W1 m ρ c (Proc.devRef .tc main_arg7) = m ((c : Thread nD τ).loc main_arg7) := by
  show StableHlo.after hostOps0 (W0 m ρ c) (Proc.devRef .tc main_arg7) = _
  after_results_simp <;> rfl

set_option maxHeartbeats 4000000 in
theorem W1_arg8 (c : Dev nD) : W1 m ρ c (Proc.devRef .tc main_arg8) = m ((c : Thread nD τ).loc main_arg8) := by
  show StableHlo.after hostOps0 (W0 m ρ c) (Proc.devRef .tc main_arg8) = _
  after_results_simp <;> rfl

set_option maxHeartbeats 4000000 in
theorem W1_arg9 (c : Dev nD) : W1 m ρ c (Proc.devRef .tc main_arg9) = m ((c : Thread nD τ).loc main_arg9) := by
  show StableHlo.after hostOps0 (W0 m ρ c) (Proc.devRef .tc main_arg9) = _
  after_results_simp <;> rfl

/-! ## After the layer-1 call -/

theorem W2_v23_0 (c : Dev nD) :
    (W2 m ρ c (Proc.devRef .tc main_v23_0) : S40000x128.Idx → EReal) = Layer1.hidden (V1 m ρ) c :=
  (W2_arr m ρ c 7).trans (Layer1.final7 (V1 m ρ) c)

theorem W2_v23_1 (c : Dev nD) :
    (W2 m ρ c (Proc.devRef .tc main_v23_1) : S40000x64.Idx → EReal) = Layer1.projected (V1 m ρ) c :=
  (W2_arr m ρ c 8).trans (Layer1.final8 (V1 m ρ) c)

theorem W2_v12 (c : Dev nD) :
    (W2 m ρ c (Proc.devRef .tc main_v12) : S40000x1.Idx → EReal)
      = invCol (Cert.ReferenceIdeal.Read.val_main_v19 (F := Ideal) (m ((c : Thread nD τ).loc main_arg1))) :=
  ((W2_arr m ρ c 2).trans (((dat0 (V1 m ρ) c).arrAt_in 2 rfl _).trans (A_eq0 (V1 m ρ) c 2))).trans (W1_v12 m ρ c)

theorem W2_v1 (c : Dev nD) :
    (W2 m ρ c (Proc.devRef .tc main_v1) : S640000.Idx → BitVec 32) = Cert.ReferenceIdeal.Read.val_main_v1 (F := Ideal) (m ((c : Thread nD τ).loc main_arg1)) :=
  (W2_of_ne m ρ c main_v1 (by decide)).trans (W1_v1 m ρ c)

theorem W2_v3 (c : Dev nD) :
    (W2 m ρ c (Proc.devRef .tc main_v3) : S640000.Idx → BitVec 32) = Cert.ReferenceIdeal.Read.val_main_v3 (F := Ideal) (m ((c : Thread nD τ).loc main_arg1)) :=
  (W2_of_ne m ρ c main_v3 (by decide)).trans (W1_v3 m ρ c)

theorem W2_arg6 (c : Dev nD) : W2 m ρ c (Proc.devRef .tc main_arg6) = m ((c : Thread nD τ).loc main_arg6) :=
  (W2_of_ne m ρ c main_arg6 (by decide)).trans (W1_arg6 m ρ c)

theorem W2_arg7 (c : Dev nD) : W2 m ρ c (Proc.devRef .tc main_arg7) = m ((c : Thread nD τ).loc main_arg7) :=
  (W2_of_ne m ρ c main_arg7 (by decide)).trans (W1_arg7 m ρ c)

theorem W2_arg8 (c : Dev nD) : W2 m ρ c (Proc.devRef .tc main_arg8) = m ((c : Thread nD τ).loc main_arg8) :=
  (W2_of_ne m ρ c main_arg8 (by decide)).trans (W1_arg8 m ρ c)

theorem W2_arg9 (c : Dev nD) : W2 m ρ c (Proc.devRef .tc main_arg9) = m ((c : Thread nD τ).loc main_arg9) :=
  (W2_of_ne m ρ c main_arg9 (by decide)).trans (W1_arg9 m ρ c)

/-- The hidden layer as the layer-1 call leaves it, over the launch arguments. -/
def hiddenK (x0 : S40000x128.Idx → EReal) (x1 : S2x640000.Idx → BitVec 32) (x2 : S128x128.Idx → EReal) (x3 : S128.Idx → EReal)
    (x4 : S128x128.Idx → EReal) : S40000x128.Idx → EReal :=
  conv (scaled (Cert.ReferenceIdeal.Read.val_main_v13 (F := Ideal) x0 x1) (invCol (Cert.ReferenceIdeal.Read.val_main_v19 (F := Ideal) x1))) x2 x3 x0 x4

theorem hidden_eq (c : Dev nD) :
    Layer1.hidden (V1 m ρ) c = hiddenK (m ((c : Thread nD τ).loc main_arg0)) (m ((c : Thread nD τ).loc main_arg1)) (m ((c : Thread nD τ).loc main_arg2)) (m ((c : Thread nD τ).loc main_arg3)) (m ((c : Thread nD τ).loc main_arg4)) := by
  unfold hiddenK
  show conv (scaled (W1 m ρ c (Proc.devRef .tc main_v22)) (W1 m ρ c (Proc.devRef .tc main_v12))) (W1 m ρ c (Proc.devRef .tc main_arg2))
      (W1 m ρ c (Proc.devRef .tc main_arg3)) (W1 m ρ c (Proc.devRef .tc main_arg0)) (W1 m ρ c (Proc.devRef .tc main_arg4)) = _
  rw [W1_v22, W1_v12, W1_arg2, W1_arg3, W1_arg0, W1_arg4]

theorem projected_eq (c : Dev nD) :
    Layer1.projected (V1 m ρ) c = lin (hiddenK (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg5)) := by
  show lin (Layer1.hidden (V1 m ρ) c) (W1 m ρ c (Proc.devRef .tc main_arg5)) = _
  rw [hidden_eq, W1_arg5]

/-! ## Before the layer-2 call -/

set_option maxHeartbeats 4000000 in
theorem W6_v33 (c : Dev nD) :
    (W6 m ρ c (Proc.devRef .tc main_v33) : S40000x64.Idx → EReal)
      = aggProj (lin (hiddenK (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg5)))
          (Cert.ReferenceIdeal.Read.val_main_v12 (F := Ideal) (m ((c : Thread nD τ).loc main_arg1))) (Cert.ReferenceIdeal.Read.val_main_v9 (F := Ideal) (m ((c : Thread nD τ).loc main_arg1))) := by
  show StableHlo.after hostOps1_3 (StableHlo.after hostOps1_2 (StableHlo.after hostOps1_1 (StableHlo.after hostOps1 (W2 m ρ c))))
      (Proc.devRef .tc main_v33) = _
  after_results_simp
  rw [W2_v23_1, W2_v1, W2_v3, projected_eq]
  rfl

set_option maxHeartbeats 4000000 in
theorem W6_v12 (c : Dev nD) :
    (W6 m ρ c (Proc.devRef .tc main_v12) : S40000x1.Idx → EReal) = invCol (Cert.ReferenceIdeal.Read.val_main_v19 (F := Ideal) (m ((c : Thread nD τ).loc main_arg1))) := by
  show StableHlo.after hostOps1_3 (StableHlo.after hostOps1_2 (StableHlo.after hostOps1_1 (StableHlo.after hostOps1 (W2 m ρ c))))
      (Proc.devRef .tc main_v12) = _
  after_results_simp
  exact W2_v12 m ρ c

set_option maxHeartbeats 4000000 in
theorem W6_v23_0 (c : Dev nD) :
    (W6 m ρ c (Proc.devRef .tc main_v23_0) : S40000x128.Idx → EReal) = hiddenK (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps1_3 (StableHlo.after hostOps1_2 (StableHlo.after hostOps1_1 (StableHlo.after hostOps1 (W2 m ρ c))))
      (Proc.devRef .tc main_v23_0) = _
  after_results_simp
  exact (W2_v23_0 m ρ c).trans (hidden_eq m ρ c)

set_option maxHeartbeats 4000000 in
theorem W6_arg6 (c : Dev nD) : W6 m ρ c (Proc.devRef .tc main_arg6) = m ((c : Thread nD τ).loc main_arg6) := by
  show StableHlo.after hostOps1_3 (StableHlo.after hostOps1_2 (StableHlo.after hostOps1_1 (StableHlo.after hostOps1 (W2 m ρ c))))
      (Proc.devRef .tc main_arg6) = _
  after_results_simp
  exact W2_arg6 m ρ c

set_option maxHeartbeats 4000000 in
theorem W6_arg7 (c : Dev nD) : W6 m ρ c (Proc.devRef .tc main_arg7) = m ((c : Thread nD τ).loc main_arg7) := by
  show StableHlo.after hostOps1_3 (StableHlo.after hostOps1_2 (StableHlo.after hostOps1_1 (StableHlo.after hostOps1 (W2 m ρ c))))
      (Proc.devRef .tc main_arg7) = _
  after_results_simp
  exact W2_arg7 m ρ c

set_option maxHeartbeats 4000000 in
theorem W6_v34 (c : Dev nD) :
    (W6 m ρ c (Proc.devRef .tc main_v34) : S64x128.Idx → EReal) = padW (m ((c : Thread nD τ).loc main_arg8)) := by
  show StableHlo.after hostOps1_3 (StableHlo.after hostOps1_2 (StableHlo.after hostOps1_1 (StableHlo.after hostOps1 (W2 m ρ c))))
      (Proc.devRef .tc main_v34) = _
  after_results_simp
  rw [W2_arg8]
  rfl

set_option maxHeartbeats 4000000 in
theorem W6_v35 (c : Dev nD) :
    (W6 m ρ c (Proc.devRef .tc main_v35) : S128.Idx → EReal) = padB (m ((c : Thread nD τ).loc main_arg9)) := by
  show StableHlo.after hostOps1_3 (StableHlo.after hostOps1_2 (StableHlo.after hostOps1_1 (StableHlo.after hostOps1 (W2 m ρ c))))
      (Proc.devRef .tc main_v35) = _
  after_results_simp
  rw [W2_arg9]
  rfl

/-! ## The results -/

/-- The embedding the kernel returns, over the launch arguments. -/
def embK (x0 : S40000x128.Idx → EReal) (x1 : S2x640000.Idx → BitVec 32) (x2 : S128x128.Idx → EReal) (x3 : S128.Idx → EReal)
    (x4 : S128x128.Idx → EReal) (x5 : S128x64.Idx → EReal) (x6 : S64.Idx → EReal) (x7 : S128x64.Idx → EReal) :
    S40000x64.Idx → EReal :=
  convPre (aggProj (lin (hiddenK x0 x1 x2 x3 x4) x5) (Cert.ReferenceIdeal.Read.val_main_v12 (F := Ideal) x1) (Cert.ReferenceIdeal.Read.val_main_v9 (F := Ideal) x1))
    (invCol (Cert.ReferenceIdeal.Read.val_main_v19 (F := Ideal) x1)) x6 (hiddenK x0 x1 x2 x3 x4) x7

theorem embedding_eq (c : Dev nD) :
    Layer2.embedding (V6 m ρ) c = embK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  unfold embK
  show convPre (W6 m ρ c (Proc.devRef .tc main_v33)) (W6 m ρ c (Proc.devRef .tc main_v12)) (W6 m ρ c (Proc.devRef .tc main_arg6))
      (W6 m ρ c (Proc.devRef .tc main_v23_0)) (W6 m ρ c (Proc.devRef .tc main_arg7)) = _
  rw [W6_v33, W6_v12, W6_arg6, W6_v23_0, W6_arg7]

theorem logitsPad_eq (c : Dev nD) :
    Layer2.logitsPad (V6 m ρ) c
      = head (embK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (padW (m ((c : Thread nD τ).loc main_arg8))) (padB (m ((c : Thread nD τ).loc main_arg9))) := by
  show head (Layer2.embedding (V6 m ρ) c) (W6 m ρ c (Proc.devRef .tc main_v34)) (W6 m ρ c (Proc.devRef .tc main_v35)) = _
  rw [embedding_eq, W6_v34, W6_v35]

theorem W8_v36_0 (c : Dev nD) :
    (W8 m ρ c (Proc.devRef .tc main_v36_0) : S40000x64.Idx → EReal)
      = embK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  have h : W8 m ρ c (Proc.devRef .tc main_v36_0) = W7 m ρ c (Proc.devRef .tc main_v36_0) := by
    show StableHlo.after hostOps2 (W7 m ρ c) (Proc.devRef .tc main_v36_0) = _
    after_results
  rw [h]
  exact ((W7_arr m ρ c 7).trans (Layer2.final7 (V6 m ρ) c)).trans (embedding_eq m ρ c)

theorem W8_v37 (c : Dev nD) :
    (W8 m ρ c (Proc.devRef .tc main_v37) : S40000x40.Idx → EReal)
      = extractStridedSlice S40000x40 ![0, 0]
          (head (embK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (padW (m ((c : Thread nD τ).loc main_arg8))) (padB (m ((c : Thread nD τ).loc main_arg9))))
          slices_S40000x128_S40000x40_0_0 := by
  have h : W8 m ρ c (Proc.devRef .tc main_v37)
      = extractStridedSlice S40000x40 ![0, 0] (W7 m ρ c (Proc.devRef .tc main_v36_1)) slices_S40000x128_S40000x40_0_0 := by
    show StableHlo.after hostOps2 (W7 m ρ c) (Proc.devRef .tc main_v37) = _
    after_results
  rw [h, show W7 m ρ c (Proc.devRef .tc main_v36_1) = Layer2.logitsPad (V6 m ρ) c from
    (W7_arr m ρ c 8).trans (Layer2.final8 (V6 m ρ) c), logitsPad_eq]

end Cert.KernelIdeal.HostValue

end
-- ==== Proof.FiniteArgs.lean ====
/-
  The precondition `finite_inputs` decoded. The printed predicate is the conjunction of nine tests, one per float
  argument: the reduction by `and`, over every axis, of the element test |x| < +∞, where +∞ is the f32 pattern
  0x7F800000. Read at extended reals, |x| = max x (-x), and max x (-x) < ⊤ excludes exactly x = ⊤ and x = ⊥: so the
  predicate being 1 says that every entry of every float argument is a real number.
-/
import proofs.«119127_j5686536700270_2_alg».proof.Pre_finite_inputs
import Idealize.ShloMosaic.PureOps.Ideal
import Idealize.ShloMosaic.Lib.ReduceAll
import Idealize.ShloMosaic.Lib.IdealHost

noncomputable section

namespace Cert.Proof.FiniteArgs

open Idealize.ShloMosaic Cert.Pre_finite_inputs

/-- The shape of a scalar has one index. -/
instance : Subsingleton S_.Idx := ⟨fun a b => funext fun d => d.elim0⟩

/-- The f32 pattern 0x7F800000 (sign 0, exponent all ones, fraction 0) denotes +∞. -/
theorem ofBits_inf_f32 : Ideal.ofBits .f32 0x7F800000#32 = (⊤ : EReal) := by
  simp [Ideal.ofBits, Ideal.ieee]

/-- A one-bit word made from a Boolean is 1 exactly when the Boolean is true. -/
theorem ofBool_eq_one (b : Bool) : BitVec.ofBool b = 1#1 ↔ b = true := by
  cases b <;> simp

/-- An extended real whose absolute value max x (-x) is below ⊤ is a real: at ⊤ the maximum is ⊤, and at ⊥ it is
    -⊥ = ⊤. -/
theorem real_of_abs_lt_top (x : EReal) (h : max x (-x) < ⊤) : ∃ r : ℝ, x = (r : EReal) := by
  induction x using EReal.rec with
  | bot => simp at h
  | coe r => exact ⟨r, rfl⟩
  | top => simp at h

/-- The element test, read back: |x| < +∞ as a one-bit word being 1 says x is a real. -/
theorem real_of_test (x : EReal)
    (h : Ideal.cmp .olt (max x (-x)) (Ideal.ofBits .f32 0x7F800000#32) = 1#1) : ∃ r : ℝ, x = (r : EReal) := by
  rw [ofBits_inf_f32] at h
  unfold Ideal.cmp at h
  rw [ofBool_eq_one] at h
  exact real_of_abs_lt_top x (of_decide_eq_true h)

/-- One argument, at any shape: if the reduction by `and` over all axes of the test |x| < +∞ is 1, every entry of x is
    a real. -/
theorem all_real {s : Shape} {axes : List (Fin s.rank)} (x : FVec Ideal s .f32)
    (hb : S_.BroadcastsInDim s (![] : Fin 0 → Fin s.rank)) (hr : s.ReducesTo axes S_) (hu : 0 < S_.numel)
    (init : IVec S_ 1)
    (e : Host.reduce IntOp.andi
          (cmpf .olt (Host.absf x) (broadcastInDim s ![] hb (constant S_ .f32 0x7F800000#32))) init hr hu
          ValueIdx.ix0 = 1#1) :
    ∀ i, ∃ r : ℝ, x i = (r : EReal) := by
  intro i
  have hi := Host.reduce_andi_all _ init hr hu ValueIdx.ix0 e i
  exact real_of_test (x i) hi

/-- THE PRECONDITION DECODED: the printed predicate being 1 says every entry of every float argument is a real. -/
theorem finite_of_pre [Cert.Pre_finite_inputs.Facts]
    (x0 : FVec Ideal S40000x128 .f32) (x1 : IVec S2x640000 32) (x2 : FVec Ideal S128x128 .f32)
    (x3 : FVec Ideal S128 .f32) (x4 : FVec Ideal S128x128 .f32) (x5 : FVec Ideal S128x64 .f32)
    (x6 : FVec Ideal S64 .f32) (x7 : FVec Ideal S128x64 .f32) (x8 : FVec Ideal S64x40 .f32)
    (x9 : FVec Ideal S40 .f32)
    (h : Cert.Pre_finite_inputs.fn (F := Ideal) x0 x1 x2 x3 x4 x5 x6 x7 x8 x9 = fun _ => 1#1) :
    (∀ i, ∃ r : ℝ, x0 i = (r : EReal)) ∧ (∀ i, ∃ r : ℝ, x2 i = (r : EReal)) ∧
    (∀ i, ∃ r : ℝ, x3 i = (r : EReal)) ∧ (∀ i, ∃ r : ℝ, x4 i = (r : EReal)) ∧
    (∀ i, ∃ r : ℝ, x5 i = (r : EReal)) ∧ (∀ i, ∃ r : ℝ, x6 i = (r : EReal)) ∧
    (∀ i, ∃ r : ℝ, x7 i = (r : EReal)) ∧ (∀ i, ∃ r : ℝ, x8 i = (r : EReal)) ∧
    (∀ i, ∃ r : ℝ, x9 i = (r : EReal)) := by
  have e := congrFun h ValueIdx.ix0
  dsimp only [Cert.Pre_finite_inputs.fn, Cert.Pre_finite_inputs.fn_part1, Cert.Pre_finite_inputs.fn_part2] at e
  simp only [andi, IntOp.andi_eq_one] at e
  obtain ⟨⟨⟨⟨⟨⟨⟨⟨h0, h2⟩, h3⟩, h4⟩, h5⟩, h6⟩, h7⟩, h8⟩, h9⟩ := e
  exact ⟨all_real x0 _ _ _ _ h0, all_real x2 _ _ _ _ h2, all_real x3 _ _ _ _ h3, all_real x4 _ _ _ _ h4,
    all_real x5 _ _ _ _ h5, all_real x6 _ _ _ _ h6, all_real x7 _ _ _ _ h7, all_real x8 _ _ _ _ h8,
    all_real x9 _ _ _ _ h9⟩

end Cert.Proof.FiniteArgs

end
-- ==== Proof.RealLaw.lean ====
/-
  Algebra on the extended reals for a mean aggregation whose projection is moved across the sum. On the reals,
  multiplication distributes over finite sums, so (Σ_e Σ_k h e k · w k) · c = Σ_k ((Σ_e h e k) · c) · w k. On the
  extended reals right-distributivity fails at the infinities ((⊤ + ⊥) · c against ⊤ · c + ⊥ · c), so the law is
  stated for entries that are real: IsR x says x is the image of a real. The reals are closed under +, ·, max, finite
  sums and division by a nonzero real, and a division by a nonzero real d is the product with the real 1 / d.
-/
import Idealize.ShloMosaic.PureOps.Ideal

noncomputable section

namespace Cert.Proof.RealLaw

open Idealize.ShloMosaic
open scoped BigOperators

/-- An extended real that is (the image of) a real number. -/
def IsR (x : EReal) : Prop := ∃ r : ℝ, x = (r : EReal)

/-! ### Closure -/

theorem isR_coe (r : ℝ) : IsR (r : EReal) := ⟨r, rfl⟩

theorem isR_zero : IsR 0 := ⟨0, EReal.coe_zero.symm⟩

theorem isR_one : IsR 1 := ⟨1, EReal.coe_one.symm⟩

theorem isR_add {x y : EReal} (hx : IsR x) (hy : IsR y) : IsR (x + y) := by
  obtain ⟨a, rfl⟩ := hx
  obtain ⟨b, rfl⟩ := hy
  exact ⟨a + b, (EReal.coe_add a b).symm⟩

theorem isR_mul {x y : EReal} (hx : IsR x) (hy : IsR y) : IsR (x * y) := by
  obtain ⟨a, rfl⟩ := hx
  obtain ⟨b, rfl⟩ := hy
  exact ⟨a * b, (EReal.coe_mul a b).symm⟩

/-- The coercion of the reals is monotone, so it carries a maximum to the maximum. -/
theorem coe_max (a b : ℝ) : ((max a b : ℝ) : EReal) = max (a : EReal) (b : EReal) :=
  EReal.coe_strictMono.monotone.map_max

theorem isR_max {x y : EReal} (hx : IsR x) (hy : IsR y) : IsR (max x y) := by
  obtain ⟨a, rfl⟩ := hx
  obtain ⟨b, rfl⟩ := hy
  exact ⟨max a b, (coe_max a b).symm⟩

/-- A finite sum of coerced reals is the coerced sum (induction on the index set). -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem isR_sum {ι : Type} (s : Finset ι) (f : ι → EReal) (h : ∀ i ∈ s, IsR (f i)) : IsR (∑ i ∈ s, f i) := by
  classical
  induction s using Finset.induction_on with
  | empty => rw [Finset.sum_empty]; exact isR_zero
  | insert a s ha ih =>
    rw [Finset.sum_insert ha]
    exact isR_add (h a (Finset.mem_insert_self a s)) (ih fun i hi => h i (Finset.mem_insert_of_mem hi))

theorem isR_univ_sum {ι : Type} [Fintype ι] (f : ι → EReal) (h : ∀ i, IsR (f i)) : IsR (∑ i, f i) :=
  isR_sum Finset.univ f fun i _ => h i

/-! ### Division by a nonzero real -/

/-- a / d = a · (1 / d) for a nonzero real d, at every extended real a (the infinities too: both sides are the
    product of a with the real d⁻¹). -/
theorem div_eq_mul_recip (a : EReal) (r : ℝ) (hr : r ≠ 0) :
    Ideal.div a (r : EReal) = a * Ideal.div 1 (r : EReal) := by
  rw [Ideal.div_coe hr a, Ideal.div_coe hr 1, one_mul]

theorem recip_isR (r : ℝ) (hr : r ≠ 0) : IsR (Ideal.div 1 (r : EReal)) := by
  rw [Ideal.div_coe hr 1, one_mul]
  exact isR_coe _

theorem isR_div {x : EReal} (hx : IsR x) {r : ℝ} (hr : r ≠ 0) : IsR (Ideal.div x (r : EReal)) := by
  rw [Ideal.div_coe hr x]
  exact isR_mul hx (isR_coe _)

/-- The maximum of a real and 1 is a real that is at least 1, so not zero. -/
theorem max_one_pos (x : EReal) (hx : IsR x) : ∃ r : ℝ, max x 1 = (r : EReal) ∧ r ≠ 0 := by
  obtain ⟨a, rfl⟩ := hx
  refine ⟨max a 1, ?_, ?_⟩
  · rw [coe_max, EReal.coe_one]
  · exact (lt_of_lt_of_le one_pos (le_max_right a 1)).ne'

/-! ### Two bit patterns -/

/-- The f32 pattern 0x3F800000 (sign 0, exponent 127, fraction 0) denotes 2⁰ = 1. -/
theorem ofBits_one_f32 : Ideal.ofBits .f32 0x3F800000#32 = (1 : EReal) := by
  rw [← EReal.coe_one]
  simp [Ideal.ofBits, Ideal.ieee, -EReal.coe_mul]
  norm_num

/-- The f32 pattern of all zeros denotes 0. -/
theorem ofBits_zero_f32 : Ideal.ofBits .f32 0x00000000#32 = (0 : EReal) := by
  simp [Ideal.ofBits, Ideal.ieee]

/-! ### The law -/

/-- The law on the reals: the projection factor c and the weights w k move across the sum over e. -/
theorem proj_sum_comm_real {E K : Type} [Fintype K] (T : Finset E) (h : E → K → ℝ) (w : K → ℝ) (c : ℝ) :
    (∑ e ∈ T, ∑ k, h e k * w k) * c = ∑ k, ((∑ e ∈ T, h e k) * c) * w k := by
  rw [Finset.sum_comm, Finset.sum_mul]
  refine Finset.sum_congr rfl fun k _ => ?_
  rw [← Finset.sum_mul]
  ring

/-- THE LAW on extended reals whose entries are real, without the leading zeros. -/
theorem proj_sum_comm' {E K : Type} [Fintype K] [DecidableEq E] (T : Finset E) (h : E → K → EReal) (w : K → EReal)
    (c : EReal) (hh : ∀ e k, IsR (h e k)) (hw : ∀ k, IsR (w k)) (hc : IsR c) :
    (∑ e ∈ T, ∑ k, h e k * w k) * c = ∑ k, ((∑ e ∈ T, h e k) * c) * w k := by
  choose hr hhr using hh
  choose wr hwr using hw
  obtain ⟨cr, rfl⟩ := hc
  obtain rfl : h = fun e k => (hr e k : EReal) := funext fun e => funext fun k => hhr e k
  obtain rfl : w = fun k => (wr k : EReal) := funext fun k => hwr k
  simp only [← EReal.coe_mul, ← coe_sum]
  rw [proj_sum_comm_real T hr wr cr]

/-- THE LAW as a program spells it, each sum started from 0. -/
theorem proj_sum_comm {E K : Type} [Fintype K] [DecidableEq E] (T : Finset E) (h : E → K → EReal) (w : K → EReal)
    (c : EReal) (hh : ∀ e k, IsR (h e k)) (hw : ∀ k, IsR (w k)) (hc : IsR c) :
    (0 + ∑ e ∈ T, (0 + ∑ k, h e k * w k)) * c = ∑ k, ((0 + ∑ e ∈ T, h e k) * c) * w k := by
  simp only [zero_add]
  exact proj_sum_comm' T h w c hh hw hc

end Cert.Proof.RealLaw

end
-- ==== Proof.SageApply.lean ====
/-
  The specification's formulas read at an entry `(n, j)`.
-/
import proofs.«119127_j5686536700270_2_alg».proof.Proof.SageSpec

noncomputable section

namespace Cert.Proof.Sage

open Idealize.ShloMosaic Idealize.ShloMosaic.ValueIdx

theorem conv_apply {N K J : Nat} (M : (⟨2, ![N, K]⟩ : Shape).Idx → EReal) (Wn : (⟨2, ![K, J]⟩ : Shape).Idx → EReal)
    (b : (⟨1, ![J]⟩ : Shape).Idx → EReal) (Xs : (⟨2, ![N, K]⟩ : Shape).Idx → EReal)
    (Ws : (⟨2, ![K, J]⟩ : Shape).Idx → EReal) (n : Fin N) (j : Fin J) :
    conv M Wn b Xs Ws (ix2 n j)
      = max (((∑ k : Fin K, M (ix2 n k) * Wn (ix2 k j)) + b (ix1 j)) + ∑ k : Fin K, Xs (ix2 n k) * Ws (ix2 k j)) z32 := by
  unfold conv; rfl

theorem scaled_apply {N K : Nat} (A : (⟨2, ![N, K]⟩ : Shape).Idx → EReal) (D : (⟨2, ![N, 1]⟩ : Shape).Idx → EReal)
    (n : Fin N) (k : Fin K) : scaled A D (ix2 n k) = A (ix2 n k) * D (ix2 n ⟨0, Nat.one_pos⟩) := by
  unfold scaled; rfl

theorem lin_apply {N K J : Nat} (H : (⟨2, ![N, K]⟩ : Shape).Idx → EReal) (W : (⟨2, ![K, J]⟩ : Shape).Idx → EReal)
    (n : Fin N) (j : Fin J) : lin H W (ix2 n j) = ∑ k : Fin K, H (ix2 n k) * W (ix2 k j) := by
  unfold lin; rfl

theorem convPre_apply {N K J : Nat} (P : (⟨2, ![N, J]⟩ : Shape).Idx → EReal) (D : (⟨2, ![N, 1]⟩ : Shape).Idx → EReal)
    (b : (⟨1, ![J]⟩ : Shape).Idx → EReal) (Hs : (⟨2, ![N, K]⟩ : Shape).Idx → EReal)
    (Ws : (⟨2, ![K, J]⟩ : Shape).Idx → EReal) (n : Fin N) (j : Fin J) :
    convPre P D b Hs Ws (ix2 n j)
      = max ((P (ix2 n j) * D (ix2 n ⟨0, Nat.one_pos⟩) + b (ix1 j)) + ∑ k : Fin K, Hs (ix2 n k) * Ws (ix2 k j)) z32 := by
  unfold convPre; rfl

theorem head_apply {N K J : Nat} (Em : (⟨2, ![N, K]⟩ : Shape).Idx → EReal) (W : (⟨2, ![K, J]⟩ : Shape).Idx → EReal)
    (b : (⟨1, ![J]⟩ : Shape).Idx → EReal) (n : Fin N) (j : Fin J) :
    head Em W b (ix2 n j) = (∑ k : Fin K, Em (ix2 n k) * W (ix2 k j)) + b (ix1 j) := by
  unfold head; rfl

end Cert.Proof.Sage

end
-- ==== Proof.BridgeDeg.lean ====
/-
  The degree, the inverse-degree column, and the scaled aggregate against the reference's quotient.

  The degree of a node is a finite sum of ones, so it is a real number, and `max(deg, 1)` is a real number that is not
  zero. Dividing by a nonzero real is multiplying by its reciprocal on every extended real, so a row of the aggregate
  multiplied by entry `(n, 0)` of the inverse-degree column is the reference's row divided by `max(deg, 1)`.
-/
import proofs.«119127_j5686536700270_2_alg».proof.Proof.HostK
import proofs.«119127_j5686536700270_2_alg».proof.Proof.RealLaw
import proofs.«119127_j5686536700270_2_alg».proof.Proof.SageApply
import Idealize.ShloMosaic.Lib.Pipeline.Value

noncomputable section

namespace Cert.Proof.Bridge

open Cert.KernelIdeal Cert.KernelIdeal.HostValue Cert.Proof.Sage Cert.Proof.RealLaw
open Idealize.ShloMosaic Idealize.ShloMosaic.ValueIdx
open Cert.ReferenceIdeal.Read (val_main_v9 val_main_v10 val_main_v11 val_main_v12 val_main_v13 val_main_v14 val_main_v15 val_main_v16 val_main_v17 val_main_v18 val_main_v19 val_main_v20 val_main_v21 val_main_v29 val_main_v35 val_main_v36 val_main_v37 val_main_v38 val_main_v39 val_main_v43 val_main_v47 val_main_v55 val_main_v59 val_main_v14_apply val_main_v15_apply val_main_v18_apply val_main_v19_apply val_main_v20_apply val_main_v21_apply val_main_cst_1_apply val_main_cst_2_apply val_main_cst_3_apply val_main_v11_apply val_main_cst_apply val_main_v37_apply val_main_cst_6_apply idx_main_v20 idx_main_v21)

variable (x1 : S2x640000.Idx → BitVec 32)

/-- A node's degree is a real number: the float zero plus a finite sum of float ones. -/
theorem deg_isR (i : S40000.Idx) : IsR (val_main_v17 (F := Ideal) x1 i) := by
  unfold val_main_v17
  rw [Host.scatterAdd, Ideal.hostScatterAdd_def]
  unfold Ideal.hostScatterAdd
  refine isR_add ?_ (isR_sum _ _ fun j _ => ?_)
  · rw [val_main_v15_apply, val_main_cst_2_apply, Ideal.ofBits_def, Cert.Proof.RealLaw.ofBits_zero_f32]; exact isR_zero
  · rw [val_main_v14_apply, val_main_cst_1_apply, Ideal.ofBits_def, ofBits_one_f32]; exact isR_one

/-- `max(deg, 1)` is a real number that is not zero. -/
theorem dmax (n : Fin 40000) : ∃ r : ℝ, val_main_v19 (F := Ideal) x1 (ix1 n) = (r : EReal) ∧ r ≠ 0 := by
  rw [val_main_v19_apply, val_main_v18_apply, val_main_cst_3_apply, Ideal.maximumf_def, Ideal.ofBits_def, ofBits_one_f32]
  exact max_one_pos _ (deg_isR x1 _)

/-- The degree the reference broadcasts along a row of 128 is the degree vector's entry of that row. -/
theorem v21_eq (n : Fin 40000) (k : Fin 128) :
    val_main_v21 (F := Ideal) x1 (ix2 n k) = val_main_v19 (F := Ideal) x1 (ix1 n) := by
  rw [val_main_v21_apply, val_main_v20_apply]
  congr 1
  funext a
  match a with
  | ⟨0, _⟩ => rfl

/-- Entry `(n, 0)` of the inverse-degree column: the float one divided by the degree vector's entry `n`. -/
theorem invCol_apply (d : S40000.Idx → EReal) (n : Fin 40000) :
    invCol d (ix2 n ⟨0, Nat.one_pos⟩) = Ideal.div 1 (d (ix1 n)) := by
  unfold invCol
  rw [broadcastInDim_apply ![0] _ _ (ix2 n ⟨0, Nat.one_pos⟩) (ix1 n) (fun a => by
    match a with
    | ⟨0, _⟩ => rfl)]
  show Ideal.div (Ideal.ofBits .f32 0x3F800000#32) (d (ix1 n)) = _
  rw [ofBits_one_f32]

/-- A row of the aggregate scaled by the inverse degree is the row divided by `max(deg, 1)`. -/
theorem scaled_eq_div (A : S40000x128.Idx → EReal) :
    scaled A (invCol (val_main_v19 (F := Ideal) x1)) = fun i => FloatOps.hostDivf (F := Ideal) (φ := .f32) (A i) (val_main_v21 (F := Ideal) x1 i) := by
  funext i
  obtain ⟨n, k, rfl⟩ : ∃ (n : Fin 40000) (k : Fin 128), i = ix2 n k := ⟨i 0, i 1, eq_ix2 i⟩
  rw [scaled_apply, v21_eq, invCol_apply]
  obtain ⟨r, hr, hr0⟩ := dmax x1 n
  rw [hr, Ideal.hostDivf_def]
  exact (div_eq_mul_recip _ r hr0).symm

/-- The reciprocal of `max(deg, 1)` is a real number. -/
theorem invCol_isR (n : Fin 40000) : IsR (invCol (val_main_v19 (F := Ideal) x1) (ix2 n ⟨0, Nat.one_pos⟩)) := by
  rw [invCol_apply]
  obtain ⟨r, hr, hr0⟩ := dmax x1 n
  rw [hr]
  exact recip_isR r hr0

end Cert.Proof.Bridge

end
-- ==== Proof.SegSum.lean ====
/-
  Gathering rows of a matrix by an edge list and summing them at the edges' targets.

  A matrix `x : [N, W]`, one start index per edge (`[E, 1]` signed words) and the row-gather dimension numbers give the
  `[E, W]` matrix whose row `e` is row `srcRow e` of `x`: the start index read signed and clamped into `[0, N − 1]`.
  The row scatter with an `add` body sends row `e` of the updates to row `tgtRow e` of the operand — the start index
  read signed and NOT clamped, the update dropped when it falls outside. At the exact values the accumulating scatter
  is a finite sum, so entry `(n, c)` of "scatter-add of a gather" is the operand's entry plus the sum, over the edges
  whose target is `n`, of entry `(srcRow e, c)` of the gathered matrix (`segsum_apply`). Neither `srcRow` nor `tgtRow`
  depends on the width `W`: that is what lets a projection be moved across the aggregation.
-/
import Idealize.ShloMosaic.PureOps.Ideal
import Idealize.ShloMosaic.PureOps.Ideal.Laws
import Idealize.ShloMosaic.Lib.ValueIdx

noncomputable section

namespace Cert.Proof.SegSum

open Idealize.ShloMosaic Idealize.ShloMosaic.ValueIdx

variable {α : Type}

/-- The dimension numbers of `x[rows]` for a matrix `x : [N, W]` and one start index per edge. -/
abbrev rowGather (N E W : Nat)
    (wf : GatherDims.WF ⟨2, ![N, W]⟩ ⟨2, ![E, 1]⟩ ⟨2, ![E, W]⟩ [1] [0] [] [0] [] 1 ![1, W]) :
    GatherDims ⟨2, ![N, W]⟩ ⟨2, ![E, 1]⟩ ⟨2, ![E, W]⟩ where
  offsetDims := [1]
  collapsedSliceDims := [0]
  operandBatchingDims := []
  startIndicesBatchingDims := []
  startIndexMap := [0]
  indexVectorDim := 1
  sliceSizes := ![1, W]
  wf := wf

/-- The dimension numbers of the row scatter: update row `e` lands on the operand row its start index names. -/
abbrev rowScatter (N E W : Nat) (wf : ScatterDims.WF ⟨2, ![N, W]⟩ ⟨2, ![E, 1]⟩ ⟨2, ![E, W]⟩ [1] [0] [0] 1) :
    ScatterDims ⟨2, ![N, W]⟩ ⟨2, ![E, 1]⟩ ⟨2, ![E, W]⟩ where
  updateWindowDims := [1]
  insertedWindowDims := [0]
  scatterDimsToOperandDims := [0]
  indexVectorDim := 1
  wf := wf

/-- The cell of the start-index matrix that holds edge `e`'s index. -/
abbrev cell {E : Nat} (e : Fin E) : (⟨2, ![E, 1]⟩ : Shape).Idx := ix2 e ⟨0, Nat.one_pos⟩

/-- The row edge `e` gathers: its start index read signed and clamped into `[0, N − 1]`. -/
def srcRow {N E w : Nat} (hN : 0 < N) (idx : IVec ⟨2, ![E, 1]⟩ w) (e : Fin E) : Fin N :=
  ⟨min (idx (cell e)).toInt.toNat (N - 1), by omega⟩

/-- The row edge `e` adds to: its start index read signed, when it is a row of the operand. -/
def tgtRow {N E w : Nat} (idx : IVec ⟨2, ![E, 1]⟩ w) (e : Fin E) : Option (Fin N) :=
  if h : 0 ≤ (idx (cell e)).toInt ∧ (idx (cell e)).toInt < (N : Int) then some ⟨(idx (cell e)).toInt.toNat, by omega⟩ else none

/-- The gather read at `(e, c)`: entry `c` of the row edge `e` names. -/
theorem rowGather_apply {N E W w : Nat} (hN : 0 < N)
    (wf : GatherDims.WF ⟨2, ![N, W]⟩ ⟨2, ![E, 1]⟩ ⟨2, ![E, W]⟩ [1] [0] [] [0] [] 1 ![1, W])
    (x : (⟨2, ![N, W]⟩ : Shape).Idx → α) (idx : IVec ⟨2, ![E, 1]⟩ w) (e : Fin E) (c : Fin W) :
    Host.gather (rowGather N E W wf) x idx (ix2 e c) = x (ix2 (srcRow hN idx e) c) := by
  unfold Host.gather
  congr 1
  funext a
  refine Fin.ext ?_
  match a with
  | ⟨0, _⟩ =>
    show (rowGather N E W wf).start (ix2 e c) idx 0 + (rowGather N E W wf).batchCoord (ix2 e c) 0
      + (rowGather N E W wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N E W wf).startIndexMap from List.mem_singleton.mpr rfl)]
    have hsi : (rowGather N E W wf).siIdx (ix2 e c) ⟨List.idxOf (0 : Fin 2) (rowGather N E W wf).startIndexMap,
        List.idxOf_lt_length_iff.2 (List.mem_singleton.mpr rfl)⟩ = cell e := by
      funext b; refine Fin.ext ?_
      match b with
      | ⟨0, _⟩ => rfl
      | ⟨1, _⟩ => rfl
    rw [hsi]
    rfl
  | ⟨1, _⟩ =>
    show (rowGather N E W wf).start (ix2 e c) idx 1 + (rowGather N E W wf).batchCoord (ix2 e c) 1
      + (rowGather N E W wf).offCoord (ix2 e c) 1 = c.val
    rw [GatherDims.batchCoord_eq_zero _ _ _ List.not_mem_nil]
    unfold GatherDims.start
    rw [dif_neg (show ¬ (1 : Fin 2) ∈ ([0] : List (Fin 2)) by decide)]
    unfold GatherDims.offCoord
    rw [dif_pos ((GatherDims.mem_sKept _ _).mpr ⟨(show ¬ (1 : Fin 2) ∈ ([0] : List (Fin 2)) by decide), List.not_mem_nil⟩)]
    simp only [Nat.zero_add]
    rfl

section Scatter

variable {N E W w : Nat} (wf : ScatterDims.WF ⟨2, ![N, W]⟩ ⟨2, ![E, 1]⟩ ⟨2, ![E, W]⟩ [1] [0] [0] 1)
  (idx : IVec ⟨2, ![E, 1]⟩ w) (e : Fin E) (c : Fin W)

theorem start0 : (rowScatter N E W wf).start (ix2 e c) idx 0 = (idx (cell e)).toInt := by
  unfold ScatterDims.start
  rw [dif_pos (show (0 : Fin 2) ∈ (rowScatter N E W wf).scatterDimsToOperandDims from List.mem_singleton.mpr rfl)]
  have hsi : (rowScatter N E W wf).siIdx (ix2 e c) ⟨List.idxOf (0 : Fin 2) (rowScatter N E W wf).scatterDimsToOperandDims,
      List.idxOf_lt_length_iff.2 (List.mem_singleton.mpr rfl)⟩ = cell e := by
    funext b; refine Fin.ext ?_
    match b with
    | ⟨0, _⟩ => rfl
    | ⟨1, _⟩ => rfl
  rw [hsi]

theorem start1 : (rowScatter N E W wf).start (ix2 e c) idx 1 = 0 := by
  unfold ScatterDims.start
  rw [dif_neg (show ¬ (1 : Fin 2) ∈ ([0] : List (Fin 2)) by decide)]

theorem window0 : (rowScatter N E W wf).window (ix2 e c) 0 = 0 := by
  unfold ScatterDims.window
  have hk : ¬ (0 : Fin 2) ∈ (rowScatter N E W wf).sKept :=
    (show ¬ (0 : Fin 2) ∈ (List.finRange 2).filter (· ∉ ([0] : List (Fin 2))) by decide)
  rw [dif_neg hk]

theorem window1 : (rowScatter N E W wf).window (ix2 e c) 1 = c.val := by
  unfold ScatterDims.window
  have hk : (1 : Fin 2) ∈ (rowScatter N E W wf).sKept :=
    (show (1 : Fin 2) ∈ (List.finRange 2).filter (· ∉ ([0] : List (Fin 2))) by decide)
  rw [dif_pos hk]
  rfl

/-- Where update entry `(e, c)` lands: entry `c` of the row edge `e` targets, or nowhere. -/
theorem rowScatter_resultIdx :
    (rowScatter N E W wf).resultIdx? (ix2 e c) idx = (tgtRow (N := N) idx e).map (fun n => ix2 n c) := by
  unfold ScatterDims.resultIdx? tgtRow
  by_cases h : 0 ≤ (idx (cell e)).toInt ∧ (idx (cell e)).toInt < (N : Int)
  · have hall : ∀ a : Fin 2, 0 ≤ (rowScatter N E W wf).start (ix2 e c) idx a + (rowScatter N E W wf).window (ix2 e c) a
        ∧ (rowScatter N E W wf).start (ix2 e c) idx a + (rowScatter N E W wf).window (ix2 e c) a
          < ((⟨2, ![N, W]⟩ : Shape).size a : Int) := by
      intro a
      match a with
      | ⟨0, _⟩ =>
        show 0 ≤ (rowScatter N E W wf).start (ix2 e c) idx 0 + ((rowScatter N E W wf).window (ix2 e c) 0 : Int)
          ∧ (rowScatter N E W wf).start (ix2 e c) idx 0 + ((rowScatter N E W wf).window (ix2 e c) 0 : Int) < (N : Int)
        rw [start0, window0]; simpa using h
      | ⟨1, _⟩ =>
        show 0 ≤ (rowScatter N E W wf).start (ix2 e c) idx 1 + ((rowScatter N E W wf).window (ix2 e c) 1 : Int)
          ∧ (rowScatter N E W wf).start (ix2 e c) idx 1 + ((rowScatter N E W wf).window (ix2 e c) 1 : Int) < (W : Int)
        rw [start1, window1]; have := c.isLt; omega
    rw [dif_pos hall, dif_pos h]
    simp only [Option.map_some]
    congr 1
    funext a
    refine Fin.ext ?_
    match a with
    | ⟨0, _⟩ =>
      show ((rowScatter N E W wf).start (ix2 e c) idx 0 + ((rowScatter N E W wf).window (ix2 e c) 0 : Int)).toNat = _
      rw [start0, window0]; simp
    | ⟨1, _⟩ =>
      show ((rowScatter N E W wf).start (ix2 e c) idx 1 + ((rowScatter N E W wf).window (ix2 e c) 1 : Int)).toNat = c.val
      rw [start1, window1]; simp
  · have hnall : ¬ ∀ a : Fin 2, 0 ≤ (rowScatter N E W wf).start (ix2 e c) idx a + (rowScatter N E W wf).window (ix2 e c) a
        ∧ (rowScatter N E W wf).start (ix2 e c) idx a + (rowScatter N E W wf).window (ix2 e c) a
          < ((⟨2, ![N, W]⟩ : Shape).size a : Int) := by
      intro hall
      have h0 := hall 0
      have h0' : 0 ≤ (rowScatter N E W wf).start (ix2 e c) idx 0 + ((rowScatter N E W wf).window (ix2 e c) 0 : Int)
          ∧ (rowScatter N E W wf).start (ix2 e c) idx 0 + ((rowScatter N E W wf).window (ix2 e c) 0 : Int) < (N : Int) := h0
      rw [start0, window0] at h0'
      exact h (by simpa using h0')
    rw [dif_neg hnall, dif_neg h]
    rfl

end Scatter

/-- Entry `(n, c)` of the accumulating scatter of gathered rows: the operand's entry plus, over the edges whose target
    row is `n`, entry `c` of the row each of them gathers. -/
theorem segsum_apply {N E W w w' : Nat} (hN : 0 < N)
    (wfs : ScatterDims.WF ⟨2, ![N, W]⟩ ⟨2, ![E, 1]⟩ ⟨2, ![E, W]⟩ [1] [0] [0] 1)
    (wfg : GatherDims.WF ⟨2, ![N, W]⟩ ⟨2, ![E, 1]⟩ ⟨2, ![E, W]⟩ [1] [0] [] [0] [] 1 ![1, W])
    (x0 H : (⟨2, ![N, W]⟩ : Shape).Idx → EReal) (dI : IVec ⟨2, ![E, 1]⟩ w) (sI : IVec ⟨2, ![E, 1]⟩ w')
    (n : Fin N) (c : Fin W) :
    Ideal.hostScatterAdd (rowScatter N E W wfs) x0 dI (Host.gather (rowGather N E W wfg) H sI) (ix2 n c)
      = x0 (ix2 n c) + ∑ e ∈ Finset.univ.filter (fun e : Fin E => tgtRow (N := N) dI e = some n), H (ix2 (srcRow hN sI e) c) := by
  unfold Ideal.hostScatterAdd
  congr 1
  rw [Finset.sum_filter, sum_idx2, Finset.sum_filter]
  refine Finset.sum_congr rfl fun e _ => ?_
  simp only [rowScatter_resultIdx, rowGather_apply hN]
  by_cases he : tgtRow (N := N) dI e = some n
  · rw [if_pos he, he]
    simp only [Option.map_some]
    rw [Finset.sum_eq_single c]
    · rw [if_pos rfl]
    · intro b _ hb
      rw [if_neg]
      intro hEq
      exact hb (by have := congrFun (Option.some.inj hEq) 1; exact this)
    · intro hc; exact absurd (Finset.mem_univ c) hc
  · rw [if_neg he]
    refine Finset.sum_eq_zero fun b _ => ?_
    rw [if_neg]
    intro hEq
    apply he
    cases hT : tgtRow (N := N) dI e with
    | none => rw [hT] at hEq; simp at hEq
    | some n' =>
      rw [hT] at hEq
      simp only [Option.map_some] at hEq
      have := congrFun (Option.some.inj hEq) 0
      exact congrArg some this

end Cert.Proof.SegSum

end
-- ==== Proof.BridgeAgg.lean ====
/-
  Moving the projection across the aggregation.

  With real entries, `(∑ over the edges into n of (H · W)[src e, j]) · c` is `∑ over k of ((∑ over the edges into n of
  H[src e, k]) · c) · W[k, j]`: a finite sum of finite sums of products of reals, rearranged. The kernel aggregates
  the 64-wide projected rows, the reference aggregates the 128-wide hidden rows and projects afterwards; both read the
  same edge list, whose source rows and target rows do not depend on the width. The hidden layer's entries are real
  because the inputs are finite: it is a clipped sum of products of reals.
-/
import proofs.«119127_j5686536700270_2_alg».proof.Proof.BridgeDeg
import proofs.«119127_j5686536700270_2_alg».proof.Proof.SegSum
import proofs.«119127_j5686536700270_2_alg».proof.Proof.SageApply

noncomputable section

namespace Cert.Proof.Bridge

open Cert.KernelIdeal Cert.KernelIdeal.HostValue Cert.Proof.Sage Cert.Proof.RealLaw Cert.Proof.SegSum
open Idealize.ShloMosaic Idealize.ShloMosaic.ValueIdx
open Cert.ReferenceIdeal.Read (val_main_v9 val_main_v10 val_main_v11 val_main_v12 val_main_v13 val_main_v14 val_main_v15 val_main_v16 val_main_v17 val_main_v18 val_main_v19 val_main_v20 val_main_v21 val_main_v29 val_main_v35 val_main_v36 val_main_v37 val_main_v38 val_main_v39 val_main_v43 val_main_v47 val_main_v55 val_main_v59 val_main_v14_apply val_main_v15_apply val_main_v18_apply val_main_v19_apply val_main_v20_apply val_main_v21_apply val_main_cst_1_apply val_main_cst_2_apply val_main_cst_3_apply val_main_v11_apply val_main_cst_apply val_main_v37_apply val_main_cst_6_apply idx_main_v20 idx_main_v21)

/-- The edges whose target row is `n`. -/
abbrev into (dI : S640000x1.Idx → BitVec 32) (n : Fin 40000) : Finset (Fin 640000) :=
  Finset.univ.filter (fun e : Fin 640000 => tgtRow (N := 40000) dI e = some n)

/-- The row an edge reads. -/
abbrev src (sI : S640000x1.Idx → BitVec 32) (e : Fin 640000) : Fin 40000 := srcRow (N := 40000) (by decide) sI e

/-- The kernel's second aggregate at an entry: the sum over the edges into `n` of the projected source rows. -/
theorem aggProj_apply (P : S40000x64.Idx → EReal) (dI sI : S640000x1.Idx → BitVec 32) (n : Fin 40000) (j : Fin 64) :
    aggProj P dI sI (ix2 n j) = 0 + ∑ e ∈ into dI n, P (ix2 (src sI e) j) := by
  unfold aggProj
  rw [Host.scatterAdd, Ideal.hostScatterAdd_def]
  refine (segsum_apply (N := 40000) (E := 640000) (W := 64) (by decide)
    scatter_S40000x64_S640000x1_S640000x64_1_0_0_1.wf gather_S40000x64_S640000x1_S640000x64_1_0_n_n_0_1_164.wf _ P dI sI n j).trans ?_
  congr 1
  show Ideal.ofBits .f32 0x00000000#32 = 0
  exact Cert.Proof.RealLaw.ofBits_zero_f32

variable (x0 : S40000x128.Idx → EReal) (x1 : S2x640000.Idx → BitVec 32) (x2 : S128x128.Idx → EReal) (x3 : S128.Idx → EReal)
  (x4 : S128x128.Idx → EReal)

/-- The second layer's index vectors are the first layer's. -/
theorem v38_eq {F : FTy → Type} [FloatOps F] (x1 : S2x640000.Idx → BitVec 32) :
    val_main_v38 (F := F) x1 = val_main_v12 (F := F) x1 := rfl
theorem v35_eq {F : FTy → Type} [FloatOps F] (x1 : S2x640000.Idx → BitVec 32) :
    val_main_v35 (F := F) x1 = val_main_v9 (F := F) x1 := rfl

/-- The reference's second aggregate at an entry: the sum over the edges into `n` of the hidden source rows. -/
theorem v39_apply (n : Fin 40000) (k : Fin 128) :
    val_main_v39 (F := Ideal) x0 x1 x2 x3 x4 (ix2 n k)
      = 0 + ∑ e ∈ into (val_main_v12 (F := Ideal) x1) n,
          val_main_v29 (F := Ideal) x0 x1 x2 x3 x4 (ix2 (src (val_main_v9 (F := Ideal) x1) e) k) := by
  unfold val_main_v39 val_main_v36
  rw [Host.scatterAdd, Ideal.hostScatterAdd_def, v38_eq, v35_eq]
  refine (segsum_apply (N := 40000) (E := 640000) (W := 128) (by decide)
    Cert.ReferenceIdeal.scatter_S40000x128_S640000x1_S640000x128_1_0_0_1.wf
    Cert.ReferenceIdeal.gather_S40000x128_S640000x1_S640000x128_1_0_n_n_0_1_1128.wf
    (val_main_v37 (F := Ideal)) (val_main_v29 (F := Ideal) x0 x1 x2 x3 x4)
    (val_main_v12 (F := Ideal) x1) (val_main_v9 (F := Ideal) x1) n k).trans ?_
  rw [val_main_v37_apply, val_main_cst_6_apply, Ideal.ofBits_def, Cert.Proof.RealLaw.ofBits_zero_f32]

/-- The first aggregate's entries are real when `x`'s are: the float zero plus a finite sum of entries of `x`. -/
theorem v13_isR (h0 : ∀ i, IsR (x0 i)) (i : S40000x128.Idx) : IsR (val_main_v13 (F := Ideal) x0 x1 i) := by
  unfold val_main_v13 val_main_v10
  rw [Host.scatterAdd, Ideal.hostScatterAdd_def]
  unfold Ideal.hostScatterAdd
  refine isR_add ?_ (isR_sum _ _ fun j _ => ?_)
  · rw [val_main_v11_apply, val_main_cst_apply, Ideal.ofBits_def, Cert.Proof.RealLaw.ofBits_zero_f32]; exact isR_zero
  · unfold Host.gather
    exact h0 _

/-- A layer's entries are real when everything it reads is. -/
theorem conv_isR {N K J : Nat} (M : (⟨2, ![N, K]⟩ : Shape).Idx → EReal) (Wn : (⟨2, ![K, J]⟩ : Shape).Idx → EReal)
    (b : (⟨1, ![J]⟩ : Shape).Idx → EReal) (Xs : (⟨2, ![N, K]⟩ : Shape).Idx → EReal) (Ws : (⟨2, ![K, J]⟩ : Shape).Idx → EReal)
    (hM : ∀ i, IsR (M i)) (hWn : ∀ i, IsR (Wn i)) (hb : ∀ i, IsR (b i)) (hXs : ∀ i, IsR (Xs i)) (hWs : ∀ i, IsR (Ws i))
    (i : (⟨2, ![N, J]⟩ : Shape).Idx) : IsR (conv M Wn b Xs Ws i) := by
  unfold conv
  refine isR_max (isR_add (isR_add (isR_univ_sum _ fun k => isR_mul (hM _) (hWn _)) (hb _))
    (isR_univ_sum _ fun k => isR_mul (hXs _) (hWs _))) ?_
  show IsR (Ideal.ofBits .f32 0x00000000#32)
  rw [Cert.Proof.RealLaw.ofBits_zero_f32]; exact isR_zero

/-- The reference's quotient `agg / max(deg, 1)` has real entries when `x` has. -/
theorem mean1_isR (h0 : ∀ i, IsR (x0 i)) (i : S40000x128.Idx) :
    IsR (FloatOps.hostDivf (F := Ideal) (φ := .f32) (val_main_v13 (F := Ideal) x0 x1 i) (val_main_v21 (F := Ideal) x1 i)) := by
  obtain ⟨n, k, rfl⟩ : ∃ (n : Fin 40000) (k : Fin 128), i = ix2 n k := ⟨i 0, i 1, eq_ix2 i⟩
  rw [v21_eq]
  obtain ⟨r, hr, hr0⟩ := dmax x1 n
  rw [hr, Ideal.hostDivf_def]
  exact isR_div (v13_isR x0 x1 h0 _) hr0

/-- THE LAW at an entry: the scaled aggregate of projected rows is the projection of the scaled aggregate of rows. -/
theorem agg_proj (H : S40000x128.Idx → EReal) (W : S128x64.Idx → EReal) (hH : ∀ i, IsR (H i)) (hW : ∀ i, IsR (W i))
    (dI sI : S640000x1.Idx → BitVec 32) (c : EReal) (hc : IsR c) (n : Fin 40000) (j : Fin 64) :
    aggProj (lin H W) dI sI (ix2 n j) * c
      = ∑ k : Fin 128, ((0 + ∑ e ∈ into dI n, H (ix2 (src sI e) k)) * c) * W (ix2 k j) := by
  rw [aggProj_apply]
  simp only [lin_apply, zero_add]
  exact proj_sum_comm' (into dI n) (fun e k => H (ix2 (src sI e) k)) (fun k => W (ix2 k j)) c
    (fun e k => hH _) (fun k => hW _) hc

end Cert.Proof.Bridge

end
-- ==== Proof.RefSpec.lean ====
/-
  The reference's three dense stages are the row-wise formulas. Each stage of the reference is a chain of elementwise
  operations, broadcasts of a bias row and matrix products, all read at one index: a matrix product's entry (n, j) is
  the sum over k of the left operand at (n, k) times the right at (k, j), a bias broadcast to every row reads entry j
  of the bias, and the clip is the maximum with the zero word. Read at an index and with the composed index maps
  written as the indices (n, k), (k, j) and (j) they are, each stage is literally the formula `conv` / `head` of the
  specification. The degree column is max(deg, 1) broadcast along each row, and the two layers compute the same degree.
-/
import proofs.«119127_j5686536700270_2_alg».proof.Proof.Gen.ReferenceIdeal.Read
import proofs.«119127_j5686536700270_2_alg».proof.Proof.SageSpec
import proofs.«119127_j5686536700270_2_alg».proof.Proof.RealLaw

noncomputable section

namespace Cert.ReferenceIdeal.RefSpec

open Cert.ReferenceIdeal Cert.ReferenceIdeal.Gen Cert.ReferenceIdeal.Read Cert.Proof.Sage
open Idealize.ShloMosaic Idealize.ShloMosaic.ValueIdx

/-! ### The composed index maps are the indices (n, k), (k, j), (j), (n) -/

theorem lidx23 (i : S40000x128.Idx) (k : Fin 128) : lidx_main_v23 i k = ix2 (n0 := 40000) (n1 := 128) (i 0) k :=
  funext fun a => Fin.ext (by match a with | ⟨0, _⟩ => rfl | ⟨1, _⟩ => rfl)
theorem ridx23 (i : S40000x128.Idx) (k : Fin 128) : ridx_main_v23 i k = ix2 (n0 := 128) (n1 := 128) k (i 1) :=
  funext fun a => Fin.ext (by match a with | ⟨0, _⟩ => rfl | ⟨1, _⟩ => rfl)
theorem lidx27 (i : S40000x128.Idx) (k : Fin 128) : lidx_main_v27 i k = ix2 (n0 := 40000) (n1 := 128) (i 0) k :=
  funext fun a => Fin.ext (by match a with | ⟨0, _⟩ => rfl | ⟨1, _⟩ => rfl)
theorem ridx27 (i : S40000x128.Idx) (k : Fin 128) : ridx_main_v27 i k = ix2 (n0 := 128) (n1 := 128) k (i 1) :=
  funext fun a => Fin.ext (by match a with | ⟨0, _⟩ => rfl | ⟨1, _⟩ => rfl)
theorem bias25 (i : S40000x128.Idx) : idx_main_v24 (idx_main_v25 i) = ix1 (n := 128) (i 1) :=
  funext fun a => Fin.ext (by match a with | ⟨0, _⟩ => rfl)
theorem lidx49 (i : S40000x64.Idx) (k : Fin 128) : lidx_main_v49 i k = ix2 (n0 := 40000) (n1 := 128) (i 0) k :=
  funext fun a => Fin.ext (by match a with | ⟨0, _⟩ => rfl | ⟨1, _⟩ => rfl)
theorem ridx49 (i : S40000x64.Idx) (k : Fin 128) : ridx_main_v49 i k = ix2 (n0 := 128) (n1 := 64) k (i 1) :=
  funext fun a => Fin.ext (by match a with | ⟨0, _⟩ => rfl | ⟨1, _⟩ => rfl)
theorem lidx53 (i : S40000x64.Idx) (k : Fin 128) : lidx_main_v53 i k = ix2 (n0 := 40000) (n1 := 128) (i 0) k :=
  funext fun a => Fin.ext (by match a with | ⟨0, _⟩ => rfl | ⟨1, _⟩ => rfl)
theorem ridx53 (i : S40000x64.Idx) (k : Fin 128) : ridx_main_v53 i k = ix2 (n0 := 128) (n1 := 64) k (i 1) :=
  funext fun a => Fin.ext (by match a with | ⟨0, _⟩ => rfl | ⟨1, _⟩ => rfl)
theorem bias51 (i : S40000x64.Idx) : idx_main_v50 (idx_main_v51 i) = ix1 (n := 64) (i 1) :=
  funext fun a => Fin.ext (by match a with | ⟨0, _⟩ => rfl)
theorem lidx56 (i : S40000x40.Idx) (k : Fin 64) : lidx_main_v56 i k = ix2 (n0 := 40000) (n1 := 64) (i 0) k :=
  funext fun a => Fin.ext (by match a with | ⟨0, _⟩ => rfl | ⟨1, _⟩ => rfl)
theorem ridx56 (i : S40000x40.Idx) (k : Fin 64) : ridx_main_v56 i k = ix2 (n0 := 64) (n1 := 40) k (i 1) :=
  funext fun a => Fin.ext (by match a with | ⟨0, _⟩ => rfl | ⟨1, _⟩ => rfl)
theorem bias58 (i : S40000x40.Idx) : idx_main_v57 (idx_main_v58 i) = ix1 (n := 40) (i 1) :=
  funext fun a => Fin.ext (by match a with | ⟨0, _⟩ => rfl)
theorem deg21 (i : S40000x128.Idx) : idx_main_v20 (idx_main_v21 i) = ix1 (n := 40000) (i 0) :=
  funext fun a => Fin.ext (by match a with | ⟨0, _⟩ => rfl)
theorem deg47 (i : S40000x128.Idx) : idx_main_v46 (idx_main_v47 i) = ix1 (n := 40000) (i 0) :=
  funext fun a => Fin.ext (by match a with | ⟨0, _⟩ => rfl)

/-! ### The neighbourhood means: the aggregated sum divided, entry by entry, by the broadcast degree -/

/-- The layer-1 mean matrix is the scatter-added sum over the broadcast degree, at every entry. -/
theorem mean1 (x0 : (⟨S40000x128, .f32⟩ : BufTy).Contents (Elt Ideal)) (x1 : (⟨S2x640000, .i32⟩ : BufTy).Contents (Elt Ideal)) :
    val_main_v22 (F := Ideal) x0 x1
      = fun i => FloatOps.hostDivf (F := Ideal) (φ := .f32) (val_main_v13 (F := Ideal) x0 x1 i) (val_main_v21 (F := Ideal) x1 i) :=
  funext fun j => val_main_v22_apply (F := Ideal) x0 x1 j

/-- The layer-2 mean matrix, likewise. -/
theorem mean2 (x0 : (⟨S40000x128, .f32⟩ : BufTy).Contents (Elt Ideal)) (x1 : (⟨S2x640000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) :
    val_main_v48 (F := Ideal) x0 x1 x2 x3 x4
      = fun i => FloatOps.hostDivf (F := Ideal) (φ := .f32) (val_main_v39 (F := Ideal) x0 x1 x2 x3 x4 i) (val_main_v47 (F := Ideal) x1 i) :=
  funext fun j => val_main_v48_apply (F := Ideal) x0 x1 x2 x3 x4 j

/-! ### Layer 1 -/

/-- Layer 1 of the reference is `conv` of its mean matrix: relu(mean · W1_nb + b1 + x · W1_self). -/
theorem layer1_mean (x0 : (⟨S40000x128, .f32⟩ : BufTy).Contents (Elt Ideal)) (x1 : (⟨S2x640000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) :
    val_main_v29 (F := Ideal) x0 x1 x2 x3 x4 = conv (val_main_v22 (F := Ideal) x0 x1) x2 x3 x0 x4 := by
  funext i
  rw [val_main_v29_apply, val_main_v28_apply, val_main_v26_apply, val_main_v23_apply, val_main_v25_apply,
    val_main_v24_apply, val_main_v27_apply, val_main_call0_v0_apply, val_main_call0_cst_apply,
    Ideal.maximumf_def, Ideal.addf_def, Ideal.addf_def, Ideal.ofBits_def, bias25]
  simp only [lidx23, ridx23, lidx27, ridx27]
  unfold conv
  rfl

/-- Layer 1, with the mean written out as sum over degree. -/
theorem layer1 (x0 : (⟨S40000x128, .f32⟩ : BufTy).Contents (Elt Ideal)) (x1 : (⟨S2x640000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) :
    val_main_v29 (F := Ideal) x0 x1 x2 x3 x4
      = conv (fun i => FloatOps.hostDivf (F := Ideal) (φ := .f32) (val_main_v13 (F := Ideal) x0 x1 i) (val_main_v21 (F := Ideal) x1 i))
          x2 x3 x0 x4 :=
  (layer1_mean x0 x1 x2 x3 x4).trans (congrArg (fun M => conv M x2 x3 x0 x4) (mean1 x0 x1))

/-! ### Layer 2 -/

/-- Layer 2 of the reference is `conv` of its mean matrix over the layer-1 result. -/
theorem layer2_mean (x0 : (⟨S40000x128, .f32⟩ : BufTy).Contents (Elt Ideal)) (x1 : (⟨S2x640000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128x64, .f32⟩ : BufTy).Contents (Elt Ideal)) (x6 : (⟨S64, .f32⟩ : BufTy).Contents (Elt Ideal)) (x7 : (⟨S128x64, .f32⟩ : BufTy).Contents (Elt Ideal)) :
    val_main_v55 (F := Ideal) x0 x1 x2 x3 x4 x5 x6 x7
      = conv (val_main_v48 (F := Ideal) x0 x1 x2 x3 x4) x5 x6 (val_main_v29 (F := Ideal) x0 x1 x2 x3 x4) x7 := by
  funext i
  rw [val_main_v55_apply, val_main_v54_apply, val_main_v52_apply, val_main_v49_apply, val_main_v51_apply,
    val_main_v50_apply, val_main_v53_apply, val_main_call1_v0_apply, val_main_call1_cst_apply,
    Ideal.maximumf_def, Ideal.addf_def, Ideal.addf_def, Ideal.ofBits_def, bias51]
  simp only [lidx49, ridx49, lidx53, ridx53]
  unfold conv
  rfl

/-- Layer 2, with the mean written out as sum over degree. -/
theorem layer2 (x0 : (⟨S40000x128, .f32⟩ : BufTy).Contents (Elt Ideal)) (x1 : (⟨S2x640000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128x64, .f32⟩ : BufTy).Contents (Elt Ideal)) (x6 : (⟨S64, .f32⟩ : BufTy).Contents (Elt Ideal)) (x7 : (⟨S128x64, .f32⟩ : BufTy).Contents (Elt Ideal)) :
    val_main_v55 (F := Ideal) x0 x1 x2 x3 x4 x5 x6 x7
      = conv (fun i => FloatOps.hostDivf (F := Ideal) (φ := .f32) (val_main_v39 (F := Ideal) x0 x1 x2 x3 x4 i) (val_main_v47 (F := Ideal) x1 i))
          x5 x6 (val_main_v29 (F := Ideal) x0 x1 x2 x3 x4) x7 :=
  (layer2_mean x0 x1 x2 x3 x4 x5 x6 x7).trans
    (congrArg (fun M => conv M x5 x6 (val_main_v29 (F := Ideal) x0 x1 x2 x3 x4) x7) (mean2 x0 x1 x2 x3 x4))

/-! ### The logits -/

/-- The reference's result is the affine head of the layer-2 result. -/
theorem logits (x0 : (⟨S40000x128, .f32⟩ : BufTy).Contents (Elt Ideal)) (x1 : (⟨S2x640000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128x64, .f32⟩ : BufTy).Contents (Elt Ideal)) (x6 : (⟨S64, .f32⟩ : BufTy).Contents (Elt Ideal)) (x7 : (⟨S128x64, .f32⟩ : BufTy).Contents (Elt Ideal)) (x8 : (⟨S64x40, .f32⟩ : BufTy).Contents (Elt Ideal)) (x9 : (⟨S40, .f32⟩ : BufTy).Contents (Elt Ideal)) :
    val_main_v59 (F := Ideal) x0 x1 x2 x3 x4 x5 x6 x7 x8 x9
      = head (val_main_v55 (F := Ideal) x0 x1 x2 x3 x4 x5 x6 x7) x8 x9 := by
  funext i
  rw [val_main_v59_apply, val_main_v56_apply, val_main_v58_apply, val_main_v57_apply, Ideal.addf_def, bias58]
  simp only [lidx56, ridx56]
  unfold head
  rfl

/-! ### The degree column -/

/-- The layer-1 divisor at entry (n, j) is max(deg n, 1): the clipped degree broadcast along the row. -/
theorem degree1 (x1 : (⟨S2x640000, .i32⟩ : BufTy).Contents (Elt Ideal)) (i : S40000x128.Idx) :
    val_main_v21 (F := Ideal) x1 i = (max (val_main_v17 (F := Ideal) x1 (ix1 (i 0))) 1 : EReal) := by
  rw [val_main_v21_apply, val_main_v20_apply, val_main_v19_apply, val_main_v18_apply, val_main_cst_3_apply,
    Ideal.maximumf_def, Ideal.ofBits_def, Cert.Proof.RealLaw.ofBits_one_f32, deg21]

/-- The layer-2 divisor, likewise. -/
theorem degree2 (x1 : (⟨S2x640000, .i32⟩ : BufTy).Contents (Elt Ideal)) (i : S40000x128.Idx) :
    val_main_v47 (F := Ideal) x1 i = (max (val_main_v43 (F := Ideal) x1 (ix1 (i 0))) 1 : EReal) := by
  rw [val_main_v47_apply, val_main_v46_apply, val_main_v45_apply, val_main_v44_apply, val_main_cst_9_apply,
    Ideal.maximumf_def, Ideal.ofBits_def, Cert.Proof.RealLaw.ofBits_one_f32, deg47]

/-- The two layers count the same degrees: the two scatter-adds of ones are one term, at every float instance. -/
theorem degree_same {F : FTy → Type} [FloatOps F] (x1 : (⟨S2x640000, .i32⟩ : BufTy).Contents (Elt F)) :
    val_main_v43 (F := F) x1 = val_main_v17 (F := F) x1 := rfl

/-- Hence the two broadcast divisors are one term, at every float instance. -/
theorem divisor_same {F : FTy → Type} [FloatOps F] (x1 : (⟨S2x640000, .i32⟩ : BufTy).Contents (Elt F)) :
    val_main_v47 (F := F) x1 = val_main_v21 (F := F) x1 := rfl

end Cert.ReferenceIdeal.RefSpec

end
-- ==== Proof.BridgeOut.lean ====
/-
  The kernel's two results are the reference's.

  Layer 1: the scaled aggregate is the reference's quotient, so the hidden layers are one array. Layer 2: at an entry
  both sides are `relu(a + b2 + h · W2_self)`, where the kernel's `a` is the scaled aggregate of projected rows and the
  reference's is the projection of the scaled aggregate of rows — equal because the hidden layer, the projection
  weights and the reciprocal degree are real. The head: the padded weights and bias agree with the unpadded ones on
  the first 40 columns, which are the ones the final slice keeps.
-/
import proofs.«119127_j5686536700270_2_alg».proof.Proof.BridgeAgg
import proofs.«119127_j5686536700270_2_alg».proof.Proof.RefSpec
import Idealize.ShloMosaic.Lib.KernelVsHost

noncomputable section

namespace Cert.Proof.Bridge

open Cert.KernelIdeal Cert.KernelIdeal.HostValue Cert.Proof.Sage Cert.Proof.RealLaw Cert.Proof.SegSum
open Idealize.ShloMosaic Idealize.ShloMosaic.ValueIdx
open Cert.ReferenceIdeal.Read (val_main_v9 val_main_v10 val_main_v11 val_main_v12 val_main_v13 val_main_v14 val_main_v15 val_main_v16 val_main_v17 val_main_v18 val_main_v19 val_main_v20 val_main_v21 val_main_v29 val_main_v35 val_main_v36 val_main_v37 val_main_v38 val_main_v39 val_main_v43 val_main_v47 val_main_v55 val_main_v59 val_main_v14_apply val_main_v15_apply val_main_v18_apply val_main_v19_apply val_main_v20_apply val_main_v21_apply val_main_cst_1_apply val_main_cst_2_apply val_main_cst_3_apply val_main_v11_apply val_main_cst_apply val_main_v37_apply val_main_cst_6_apply idx_main_v20 idx_main_v21)
open Cert.ReferenceIdeal.RefSpec (layer1 layer2 logits divisor_same)

variable (x0 : S40000x128.Idx → EReal) (x1 : S2x640000.Idx → BitVec 32) (x2 : S128x128.Idx → EReal) (x3 : S128.Idx → EReal)
  (x4 : S128x128.Idx → EReal) (x5 : S128x64.Idx → EReal) (x6 : S64.Idx → EReal) (x7 : S128x64.Idx → EReal)
  (x8 : S64x40.Idx → EReal) (x9 : S40.Idx → EReal)

/-- The hidden layer the layer-1 call leaves is the reference's. -/
theorem hiddenK_eq : hiddenK x0 x1 x2 x3 x4 = val_main_v29 (F := Ideal) x0 x1 x2 x3 x4 := by
  unfold hiddenK
  rw [scaled_eq_div]
  exact (layer1 x0 x1 x2 x3 x4).symm

/-- Its entries are real when the inputs it reads are. -/
theorem v29_isR (h0 : ∀ i, IsR (x0 i)) (h2 : ∀ i, IsR (x2 i)) (h3 : ∀ i, IsR (x3 i)) (h4 : ∀ i, IsR (x4 i))
    (i : S40000x128.Idx) : IsR (val_main_v29 (F := Ideal) x0 x1 x2 x3 x4 i) := by
  rw [layer1]
  exact conv_isR _ _ _ _ _ (mean1_isR x0 x1 h0) h2 h3 h0 h4 i

/-- THE EMBEDDING: the kernel's is the reference's. -/
theorem emb_eq (h0 : ∀ i, IsR (x0 i)) (h2 : ∀ i, IsR (x2 i)) (h3 : ∀ i, IsR (x3 i)) (h4 : ∀ i, IsR (x4 i))
    (h5 : ∀ i, IsR (x5 i)) :
    embK x0 x1 x2 x3 x4 x5 x6 x7 = val_main_v55 (F := Ideal) x0 x1 x2 x3 x4 x5 x6 x7 := by
  rw [layer2, divisor_same (F := Ideal) x1, ← scaled_eq_div x1 (val_main_v39 (F := Ideal) x0 x1 x2 x3 x4)]
  unfold embK
  rw [hiddenK_eq]
  funext i
  obtain ⟨n, j, rfl⟩ : ∃ (n : Fin 40000) (j : Fin 64), i = ix2 n j := ⟨i 0, i 1, eq_ix2 i⟩
  rw [convPre_apply, conv_apply,
    agg_proj (val_main_v29 (F := Ideal) x0 x1 x2 x3 x4) x5 (v29_isR x0 x1 x2 x3 x4 h0 h2 h3 h4) h5 _ _ _ (invCol_isR x1 n) n j]
  simp only [scaled_apply, v39_apply]

/-- The padded weights on the first 40 columns are the weights. -/
theorem padW_apply (w : S64x40.Idx → EReal) (k : Fin 64) (j : Fin 40) :
    padW w (ix2 (n0 := 64) (n1 := 128) k ⟨j.val, by omega⟩) = w (ix2 k j) := by
  unfold padW
  exact pad_apply_of_inside ![0, 0] ![0, 88] ![0, 0] w _ _ _ (ix2 (n0 := 64) (n1 := 128) k ⟨j.val, by omega⟩) (ix2 k j) (fun a => by
    match a with
    | ⟨0, _⟩ => show k.val = 0 + k.val * (0 + 1); omega
    | ⟨1, _⟩ => show j.val = 0 + j.val * (0 + 1); omega)

/-- The padded bias on the first 40 entries is the bias. -/
theorem padB_apply (b : S40.Idx → EReal) (j : Fin 40) : padB b (ix1 (n := 128) ⟨j.val, by omega⟩) = b (ix1 j) := by
  unfold padB
  exact pad_apply_of_inside ![0] ![88] ![0] b _ _ _ (ix1 (n := 128) ⟨j.val, by omega⟩) (ix1 j) (fun a => by
    match a with
    | ⟨0, _⟩ => show j.val = 0 + j.val * (0 + 1); omega)

/-- THE LOGITS: the first 40 columns of the kernel's padded head are the reference's head. -/
theorem logits_eq (hemb : embK x0 x1 x2 x3 x4 x5 x6 x7 = val_main_v55 (F := Ideal) x0 x1 x2 x3 x4 x5 x6 x7) :
    extractStridedSlice S40000x40 ![0, 0] (head (embK x0 x1 x2 x3 x4 x5 x6 x7) (padW x8) (padB x9))
        Gen.slices_S40000x128_S40000x40_0_0
      = val_main_v59 (F := Ideal) x0 x1 x2 x3 x4 x5 x6 x7 x8 x9 := by
  rw [logits, hemb]
  funext i
  obtain ⟨n, j, rfl⟩ : ∃ (n : Fin 40000) (j : Fin 40), i = ix2 n j := ⟨i 0, i 1, eq_ix2 i⟩
  rw [extractStridedSlice_apply ![0, 0] _ _ (ix2 n j) (ix2 (n0 := 40000) (n1 := 128) n ⟨j.val, by omega⟩) (fun a => by
    match a with
    | ⟨0, _⟩ => show n.val = 0 + n.val; omega
    | ⟨1, _⟩ => show j.val = 0 + j.val; omega)]
  rw [head_apply, head_apply]
  simp only [padW_apply, padB_apply]

end Cert.Proof.Bridge

end
-- ==== Proof.lean ====
/-
  A two-layer mean-aggregating graph convolution (GraphSAGE) with a linear classifier, on 40000 nodes and 640000
  edges: the kernel against its jnp reference, over the extended reals.

  Both programs compute, with `deg[n]` the number of edges into `n` and `d = max(deg, 1)`,
      h1  = relu((agg(x) / d) · W1_nb + b1 + x · W1_self),
      emb = relu((agg(h1) / d) · W2_nb + b2 + h1 · W2_self),      logits = emb · Wfc + bfc,
  where `agg(v)[n] = ∑ over the edges e into n of v[src e]`. The kernel differs in three places. It multiplies by the
  column `1 / d` instead of dividing by `d` — the same on every extended real, `d` being a nonzero real. It projects
  before aggregating in the second layer, `agg(h1 · W2_nb) ⊙ (1/d)` for `(agg(h1) / d) · W2_nb` — equal because a
  finite sum of finite sums of products of REALS may be rearranged, and the hidden layer is real when the inputs are
  finite (on the extended reals the rearrangement fails at infinities, so this is where the precondition is used). And
  it pads the classifier with zero columns to width 128 and slices the first 40 back.

  The modules: `SageSpec` / `SageApply` (the row-wise formulas), `KBody` (the two kernel bodies are those formulas
  of their loaded blocks), `Layer1` / `Layer2` (each call's result arrays as whole-array formulas of the arrays it is
  entered with), `HostK` (the host operations around the calls, and the two results over the launch arguments),
  `KernelRun` (the run with the results named), `RefSpec` (the reference's dense stages are the same formulas),
  `SegSum` (gather and accumulating scatter along an edge list, read at an entry), `RealLaw` (the algebra),
  `FiniteArgs` (finite inputs are real), `BridgeDeg` / `BridgeAgg` / `BridgeOut` (the two sides are one function).
-/
import proofs.«119127_j5686536700270_2_alg».proof.Defs
import proofs.«119127_j5686536700270_2_alg».proof.Proof.Gen.Kernel
import proofs.«119127_j5686536700270_2_alg».proof.Proof.Gen.Kernel.Skeleton
import proofs.«119127_j5686536700270_2_alg».proof.Proof.Gen.Kernel.Launch
import proofs.«119127_j5686536700270_2_alg».proof.Proof.Gen.Kernel.Points
import proofs.«119127_j5686536700270_2_alg».proof.Proof.Gen.Kernel.Frame
import proofs.«119127_j5686536700270_2_alg».proof.Proof.Gen.KernelIdeal
import proofs.«119127_j5686536700270_2_alg».proof.Proof.Gen.KernelIdeal.Skeleton
import proofs.«119127_j5686536700270_2_alg».proof.Proof.Gen.KernelIdeal.Launch
import proofs.«119127_j5686536700270_2_alg».proof.Proof.Gen.KernelIdeal.Points
import proofs.«119127_j5686536700270_2_alg».proof.Proof.Gen.KernelIdeal.Frame
import proofs.«119127_j5686536700270_2_alg».proof.Proof.Gen.ReferenceIdeal
import proofs.«119127_j5686536700270_2_alg».proof.Proof.Gen.ReferenceIdeal.Run
import proofs.«119127_j5686536700270_2_alg».proof.Proof.Gen.ReferenceIdeal.Read
import proofs.«119127_j5686536700270_2_alg».proof.Proof.Gen.Pre_finite_inputs
import proofs.«119127_j5686536700270_2_alg».proof.Proof.KernelRun
import proofs.«119127_j5686536700270_2_alg».proof.Proof.HostK
import proofs.«119127_j5686536700270_2_alg».proof.Proof.FiniteArgs
import proofs.«119127_j5686536700270_2_alg».proof.Proof.BridgeOut
import Idealize.ShloMosaic.Adequacy
import Idealize.ShloMosaic.Init

noncomputable section

namespace Cert.Proof

open Idealize.ShloMosaic Idealize.ShloMosaic.TcCoe Idealize.SL.Sem

/-- The word-level kernel runs and leaves its arguments unchanged: the generated frame. -/
theorem frame_k : @Cert.frame_Kernel Cert.Kernel.Gen.facts Cert.Pre_finite_inputs.Gen.facts :=
  fun m ρ _ => Cert.Kernel.Gen.frame m ρ

/-- So does the idealized kernel. -/
theorem frame_ki : @Cert.frame_KernelIdeal Cert.KernelIdeal.Gen.facts Cert.Pre_finite_inputs.Gen.facts :=
  fun m ρ _ => Cert.KernelIdeal.Gen.frame m ρ

/-- The reference's frame is its generated run with the results dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2.2)
    (Cert.ReferenceIdeal.Value.run (F := Ideal) m ρ)

/-- Both programs end with the embedding and the logits the reference's stages compute of the launch arguments. -/
theorem algebraic :
    @Cert.algebraic_KernelIdeal_ReferenceIdeal Cert.KernelIdeal.Gen.facts Cert.ReferenceIdeal.Gen.facts
      Cert.Pre_finite_inputs.Gen.facts := by
  intro m ρ m' ρ' hpre hagree
  have hfin := fun c : Dev Cert.KernelIdeal.nD =>
    Cert.Proof.FiniteArgs.finite_of_pre (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (hpre c)
  have hemb := fun c : Dev Cert.KernelIdeal.nD =>
    Cert.Proof.Bridge.emb_eq (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      (hfin c).1 (hfin c).2.1 (hfin c).2.2.1 (hfin c).2.2.2.1 (hfin c).2.2.2.2.1
  refine ⟨fun c => Cert.ReferenceIdeal.Read.val_main_v55 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    fun c => Cert.ReferenceIdeal.Read.val_main_v59 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    ?_, ?_⟩
  · refine (θ_run Cert.KernelIdeal.defs _ _).mono (fun r h c => ⟨?_, ?_, (h c).2.2⟩)
      (Cert.KernelIdeal.RunValue.run_results (F := Ideal) m ρ)
    · exact ((h c).1.trans (Cert.KernelIdeal.HostValue.W8_v36_0 m ρ c)).trans (hemb c)
    · exact ((h c).2.1.trans (Cert.KernelIdeal.HostValue.W8_v37 m ρ c)).trans
        (Cert.Proof.Bridge.logits_eq _ _ _ _ _ _ _ _ _ _ (hemb c))
  · refine (θ_run Cert.ReferenceIdeal.defs _ _).mono (fun r h c => ⟨?_, ?_, (h c).2.2⟩)
      (Cert.ReferenceIdeal.Value.run (F := Ideal) m' ρ')
    · rw [(h c).1, Cert.ReferenceIdeal.Read.val_main_v55_eq]
      obtain ⟨e0, e1, e2, e3, e4, e5, e6, e7, e8, e9⟩ := hagree c
      rw [e0, e1, e2, e3, e4, e5, e6, e7]
    · rw [(h c).2.1, Cert.ReferenceIdeal.Read.val_main_v59_eq]
      obtain ⟨e0, e1, e2, e3, e4, e5, e6, e7, e8, e9⟩ := hagree c
      rw [e0, e1, e2, e3, e4, e5, e6, e7, e8, e9]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
